-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x16 : Shape := ⟨3, ![3, 64, 16]⟩
abbrev S16 : Shape := ⟨1, ![16]⟩
abbrev S3x16x40 : Shape := ⟨3, ![3, 16, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x16 : S_.BroadcastsInDim S3x64x16 (![] : Fin 0 → Fin S3x64x16.rank)
  reducesTo_S3x64x16_S_d0_1_2 : S3x64x16.ReducesTo [0, 1, 2] S_
  bcast_S_S16 : S_.BroadcastsInDim S16 (![] : Fin 0 → Fin S16.rank)
  reducesTo_S16_S_d0 : S16.ReducesTo [0] S_
  bcast_S_S3x16x40 : S_.BroadcastsInDim S3x16x40 (![] : Fin 0 → Fin S3x16x40.rank)
  reducesTo_S3x16x40_S_d0_1_2 : S3x16x40.ReducesTo [0, 1, 2] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S3x16x40 1) : IVec S_ 1 :=
  let main_c_5 : IVec S_ 1 := constantI S_ 1 1#1
  let main_v17 : IVec S_ 1 := (fun x v => Host.reduce IntOp.andi x v reducesTo_S3x16x40_S_d0_1_2 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S3x64x16 .f32) (main_arg3 : FVec F S16 .f32) (main_arg4 : FVec F S3x16x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x16 .f32 := Host.absf main_arg2
  let main_cst_0 : FVec F S_ .f32 := constant S_ .f32 0x7F800000#32
  let main_v5 : FVec F S3x64x16 .f32 := broadcastInDim S3x64x16 ![] bcast_S_S3x64x16 main_cst_0
  let main_v6 : IVec S3x64x16 1 := cmpf .olt main_v4 main_v5
  let main_c_1 : IVec S_ 1 := constantI S_ 1 1#1
  let main_v7 : IVec S_ 1 := (fun x v => Host.reduce IntOp.andi x v reducesTo_S3x64x16_S_d0_1_2 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S3x16x40 .f32 := Host.absf main_arg4
  let main_cst_4 : FVec F S_ .f32 := constant S_ .f32 0x7F800000#32
  let main_v15 : FVec F S3x16x40 .f32 := broadcastInDim S3x16x40 ![] bcast_S_S3x16x40 main_cst_4
  let main_v16 : IVec S3x16x40 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S3x64x16 : Shape := ⟨3, ![3, 64, 16]⟩
abbrev S16 : Shape := ⟨1, ![16]⟩
abbrev S3x16x40 : Shape := ⟨3, ![3, 16, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x16 : Shape := ⟨3, ![1, 64, 16]⟩
abbrev S64x16 : Shape := ⟨2, ![64, 16]⟩
abbrev S1x16 : Shape := ⟨2, ![1, 16]⟩
abbrev S100000x16 : Shape := ⟨2, ![100000, 16]⟩
abbrev S10000x64 : Shape := ⟨2, ![10000, 64]⟩
abbrev S10000x16 : Shape := ⟨2, ![10000, 16]⟩
abbrev S1600000x16 : Shape := ⟨2, ![1600000, 16]⟩
abbrev S1x16x40 : Shape := ⟨3, ![1, 16, 40]⟩
abbrev S16x40 : Shape := ⟨2, ![16, 40]⟩
abbrev S1x40 : Shape := ⟨2, ![1, 40]⟩
abbrev S100000x40 : Shape := ⟨2, ![100000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 135
  | .vmem => 24
  | .smem => 0
  | _ => 0

abbrev hbmTy0_0 (i : Nat) : BufTy := match i % 128 with
  | 0 => ⟨S100000x64, .f32⟩
  | 1 => ⟨S2x1600000, .i32⟩
  | 2 => ⟨S3x64x16, .f32⟩
  | 3 => ⟨S16, .f32⟩
  | 4 => ⟨S3x16x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S1600000x1, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64x16, .f32⟩
  | 84 => ⟨S64x16, .f32⟩
  | 85 => ⟨S1x64x16, .f32⟩
  | 86 => ⟨S64x16, .f32⟩
  | 87 => ⟨S1x64x16, .f32⟩
  | 88 => ⟨S64x16, .f32⟩
  | 89 => ⟨S1x16, .f32⟩
  | 90 => ⟨S100000x16, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x16, .f32⟩
  | 100 => ⟨S1600000x1, .f32⟩
  | 101 => ⟨S1600000x16, .f32⟩
  | 102 => ⟨S1600000x16, .f32⟩
  | 103 => ⟨S_, .f32⟩
  | 104 => ⟨S100000x16, .f32⟩
  | 105 => ⟨S1600000x1, .i32⟩
  | 106 => ⟨S100000x16, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x16, .f32⟩
  | 116 => ⟨S1600000x1, .f32⟩
  | 117 => ⟨S1600000x16, .f32⟩
  | 118 => ⟨S1600000x16, .f32⟩
  | 119 => ⟨S_, .f32⟩
  | 120 => ⟨S100000x16, .f32⟩
  | 121 => ⟨S1600000x1, .i32⟩
  | 122 => ⟨S100000x16, .f32⟩
  | 123 => ⟨S_, .f32⟩
  | 124 => ⟨S100000x16, .f32⟩
  | 125 => ⟨S100000x16, .f32⟩
  | 126 => ⟨S100000x16, .f32⟩
  | 127 => ⟨S1x16x40, .f32⟩
  | _ => ⟨S100000x64, .f32⟩

abbrev hbmTy0_1 (i : Nat) : BufTy := match i % 128 with
  | 0 => ⟨S16x40, .f32⟩
  | 1 => ⟨S1x16x40, .f32⟩
  | 2 => ⟨S16x40, .f32⟩
  | 3 => ⟨S1x16x40, .f32⟩
  | 4 => ⟨S16x40, .f32⟩
  | 5 => ⟨S1x40, .f32⟩
  | 6 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S64x16, .f32⟩
  | .local _ .vmem, ⟨7, _⟩ => ⟨S64x16, .f32⟩
  | .local _ .vmem, ⟨8, _⟩ => ⟨S64x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S16x40, .f32⟩
  | .local _ .vmem, ⟨19, _⟩ => ⟨S16x40, .f32⟩
  | .local _ .vmem, ⟨20, _⟩ => ⟨S16x40, .f32⟩
  | .local _ .vmem, ⟨21, _⟩ => ⟨S1x40, .f32⟩
  | .local _ .vmem, ⟨22, _⟩ => ⟨S10000x40, .f32⟩
  | .local _ .vmem, ⟨23, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_c_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_20 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x16_S1x64x16_0_0_0 : S3x64x16.Slices ![0, 0, 0] S1x64x16
  shapeCasts_S1x64x16_S64x16 : S1x64x16.ShapeCasts S64x16
  slices_S3x64x16_S1x64x16_1_0_0 : S3x64x16.Slices ![1, 0, 0] S1x64x16
  slices_S3x64x16_S1x64x16_2_0_0 : S3x64x16.Slices ![2, 0, 0] S1x64x16
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  slices_S3x16x40_S1x16x40_0_0_0 : S3x16x40.Slices ![0, 0, 0] S1x16x40
  shapeCasts_S1x16x40_S16x40 : S1x16x40.ShapeCasts S16x40
  slices_S3x16x40_S1x16x40_1_0_0 : S3x16x40.Slices ![1, 0, 0] S1x16x40
  slices_S3x16x40_S1x16x40_2_0_0 : S3x16x40.Slices ![2, 0, 0] S1x16x40
  shapeCasts_S40_S1x40 : S40.ShapeCasts S1x40
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  shapeCasts_S16x40_S16x40 : S16x40.ShapeCasts S16x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x40_S10000x40_1_0_0_1_n_n_wf : DotDims.WF S10000x16 S16x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x16.size a ≤ S100000x16.size a
  hwx0_7 : ∀ i : grid0.Coords, EltTy.bits .f32 = 32 ∨ (Rect.block (s := S100000x16) S10000x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x40.size a ≤ S16x40.size a
  hwx1_5 : ∀ i : grid1.Coords, EltTy.bits .f32 = 32 ∨ (Rect.block (s := S16x40) S16x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x40.size a ≤ S100000x40.size a
  hwx1_7 : ∀ i : grid1.Coords, EltTy.bits .f32 = 32 ∨ (Rect.block (s := S100000x40) S10000x40.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S10000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v66) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S10000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v97) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v99) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v101) S16x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v102) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v103) S10000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x16 : Shape := ⟨3, ![3, 64, 16]⟩
abbrev S16 : Shape := ⟨1, ![16]⟩
abbrev S3x16x40 : Shape := ⟨3, ![3, 16, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x16 : Shape := ⟨3, ![1, 64, 16]⟩
abbrev S64x16 : Shape := ⟨2, ![64, 16]⟩
abbrev S100000x16 : Shape := ⟨2, ![100000, 16]⟩
abbrev S1600000x64 : Shape := ⟨2, ![1600000, 64]⟩
abbrev S1x16 : Shape := ⟨2, ![1, 16]⟩
abbrev S1x16x40 : Shape := ⟨3, ![1, 16, 40]⟩
abbrev S16x40 : Shape := ⟨2, ![16, 40]⟩
abbrev S100000x40 : Shape := ⟨2, ![100000, 40]⟩
abbrev S1600000x16 : Shape := ⟨2, ![1600000, 16]⟩
abbrev S1x40 : Shape := ⟨2, ![1, 40]⟩
abbrev S100000x1 : Shape := ⟨2, ![100000, 1]⟩

abbrev nBuf : Space → Nat
  | .hbm => 206
  | .vmem => 0
  | .smem => 0
  | _ => 0

abbrev hbmTy0_0 (i : Nat) : BufTy := match i % 128 with
  | 0 => ⟨S100000x64, .f32⟩
  | 1 => ⟨S2x1600000, .i32⟩
  | 2 => ⟨S3x64x16, .f32⟩
  | 3 => ⟨S16, .f32⟩
  | 4 => ⟨S3x16x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000, .f32⟩
  | 47 => ⟨S1x64x16, .f32⟩
  | 48 => ⟨S64x16, .f32⟩
  | 49 => ⟨S100000x16, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x64x16, .f32⟩
  | 67 => ⟨S64x16, .f32⟩
  | 68 => ⟨S100000x16, .f32⟩
  | 69 => ⟨S100000x16, .f32⟩
  | 70 => ⟨S1600000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S1x64x16, .f32⟩
  | 91 => ⟨S64x16, .f32⟩
  | 92 => ⟨S100000x16, .f32⟩
  | 93 => ⟨S100000x16, .f32⟩
  | 94 => ⟨S1x16, .f32⟩
  | 95 => ⟨S100000x16, .f32⟩
  | 96 => ⟨S100000x16, .f32⟩
  | 97 => ⟨S_, .f32⟩
  | 98 => ⟨S100000x16, .f32⟩
  | 99 => ⟨S100000x16, .f32⟩
  | 100 => ⟨S1x1600000, .i32⟩
  | 101 => ⟨S1600000, .i32⟩
  | 102 => ⟨S1x1600000, .i32⟩
  | 103 => ⟨S1600000, .i32⟩
  | 104 => ⟨S_, .f32⟩
  | 105 => ⟨S1600000, .f32⟩
  | 106 => ⟨S_, .f32⟩
  | 107 => ⟨S100000, .f32⟩
  | 108 => ⟨S1600000x1, .i32⟩
  | 109 => ⟨S100000, .f32⟩
  | 110 => ⟨S_, .f32⟩
  | 111 => ⟨S100000, .f32⟩
  | 112 => ⟨S100000, .i1⟩
  | 113 => ⟨S_, .f32⟩
  | 114 => ⟨S100000, .f32⟩
  | 115 => ⟨S100000, .f32⟩
  | 116 => ⟨S100000, .f32⟩
  | 117 => ⟨S_, .f32⟩
  | 118 => ⟨S_, .f32⟩
  | 119 => ⟨S100000, .f32⟩
  | 120 => ⟨S100000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x64, .f32⟩

abbrev hbmTy0_1 (i : Nat) : BufTy := match i % 128 with
  | 0 => ⟨S1600000x1, .i32⟩
  | 1 => ⟨S1600000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S1600000, .f32⟩
  | 13 => ⟨S1x16x40, .f32⟩
  | 14 => ⟨S16x40, .f32⟩
  | 15 => ⟨S100000x40, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x16, .f32⟩
  | 26 => ⟨S1600000x16, .f32⟩
  | 27 => ⟨S1600000x16, .f32⟩
  | 28 => ⟨S_, .f32⟩
  | 29 => ⟨S100000x16, .f32⟩
  | 30 => ⟨S1600000x1, .i32⟩
  | 31 => ⟨S100000x16, .f32⟩
  | 32 => ⟨S1x16x40, .f32⟩
  | 33 => ⟨S16x40, .f32⟩
  | 34 => ⟨S100000x40, .f32⟩
  | 35 => ⟨S100000x40, .f32⟩
  | 36 => ⟨S1600000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x16, .f32⟩
  | 46 => ⟨S1600000x16, .f32⟩
  | 47 => ⟨S1600000x16, .f32⟩
  | 48 => ⟨S_, .f32⟩
  | 49 => ⟨S100000x16, .f32⟩
  | 50 => ⟨S1600000x1, .i32⟩
  | 51 => ⟨S100000x16, .f32⟩
  | 52 => ⟨S_, .f32⟩
  | 53 => ⟨S100000x16, .f32⟩
  | 54 => ⟨S100000x16, .f32⟩
  | 55 => ⟨S100000x16, .f32⟩
  | 56 => ⟨S1x16x40, .f32⟩
  | 57 => ⟨S16x40, .f32⟩
  | 58 => ⟨S100000x40, .f32⟩
  | 59 => ⟨S100000x40, .f32⟩
  | 60 => ⟨S1x40, .f32⟩
  | 61 => ⟨S100000x40, .f32⟩
  | 62 => ⟨S100000x40, .f32⟩
  | 63 => ⟨S_, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x40, .f32⟩
  | 70 => ⟨S100000x40, .f32⟩
  | 71 => ⟨S100000x40, .f32⟩
  | 72 => ⟨S_, .f32⟩
  | 73 => ⟨S100000, .f32⟩
  | 74 => ⟨S100000x1, .f32⟩
  | 75 => ⟨S100000x1, .f32⟩
  | 76 => ⟨S100000x40, .f32⟩
  | 77 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_call2_v0 : Ref sig .tc := ⟨.hbm, 118, rfl⟩
abbrev main_call2_v1 : Ref sig .tc := ⟨.hbm, 119, rfl⟩
abbrev main_v87 : Ref sig .tc := ⟨.hbm, 120, rfl⟩
abbrev main_c_19 : Ref sig .tc := ⟨.hbm, 121, rfl⟩
abbrev main_v88 : Ref sig .tc := ⟨.hbm, 122, rfl⟩
abbrev main_v89 : Ref sig .tc := ⟨.hbm, 123, rfl⟩
abbrev main_c_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_c_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_23 : Ref sig .tc := ⟨.hbm, 145, rfl⟩
abbrev main_v108 : Ref sig .tc := ⟨.hbm, 146, rfl⟩
abbrev main_v109 : Ref sig .tc := ⟨.hbm, 147, rfl⟩
abbrev main_c_24 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_25 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_26 : Ref sig .tc := ⟨.hbm, 165, rfl⟩
abbrev main_v125 : Ref sig .tc := ⟨.hbm, 166, rfl⟩
abbrev main_v126 : Ref sig .tc := ⟨.hbm, 167, rfl⟩
abbrev main_c_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_28 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_29 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_call3_cst : Ref sig .tc := ⟨.hbm, 191, rfl⟩
abbrev main_call3_v0 : Ref sig .tc := ⟨.hbm, 192, rfl⟩
abbrev main_call3_cst_0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_v5 : Ref sig .tc := ⟨.hbm, 198, rfl⟩
abbrev main_call3_v6 : Ref sig .tc := ⟨.hbm, 199, rfl⟩
abbrev main_call3_cst_1 : Ref sig .tc := ⟨.hbm, 200, rfl⟩
abbrev main_call3_v7 : Ref sig .tc := ⟨.hbm, 201, rfl⟩
abbrev main_call3_v8 : Ref sig .tc := ⟨.hbm, 202, rfl⟩
abbrev main_call3_v9 : Ref sig .tc := ⟨.hbm, 203, rfl⟩
abbrev main_call3_v10 : Ref sig .tc := ⟨.hbm, 204, rfl⟩
abbrev main_v147 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x64x16_S1x64x16_0_0_0 : S3x64x16.Slices ![0, 0, 0] S1x64x16
  shapeCasts_S1x64x16_S64x16 : S1x64x16.ShapeCasts S64x16
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x16_S1x64x16_1_0_0 : S3x64x16.Slices ![1, 0, 0] S1x64x16
  slices_S3x64x16_S1x64x16_2_0_0 : S3x64x16.Slices ![2, 0, 0] S1x64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  slices_S3x16x40_S1x16x40_0_0_0 : S3x16x40.Slices ![0, 0, 0] S1x16x40
  shapeCasts_S1x16x40_S16x40 : S1x16x40.ShapeCasts S16x40
  bcast_S1600000x1_S1600000x16_0_1 : S1600000x1.BroadcastsInDim S1600000x16 (![0, 1] : Fin 2 → Fin S1600000x16.rank)
  slices_S3x16x40_S1x16x40_1_0_0 : S3x16x40.Slices ![1, 0, 0] S1x16x40
  slices_S3x16x40_S1x16x40_2_0_0 : S3x16x40.Slices ![2, 0, 0] S1x16x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x16_S100000x16_1_0_0_1_n_n_wf : DotDims.WF S100000x64 S64x16 S100000x16 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x16_S16x40_S100000x40_1_0_0_1_n_n_wf : DotDims.WF S100000x16 S16x40 S100000x40 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.Glue.lean ====
/-
  The idealized kernel's host operations, read back as the reference's stages.

  Around its two launches the kernel computes on the host what the reference computes: the edge rows and columns, the
  degree-normalised edge weights w(e), and for a feature array z the scaled-Laplacian image

      L z = scatter-add over edges e of  z[row e] · w(e)  into row  col e,

  then T1 = L z and T2 = 2·L T1 − z; the reference writes the product as  w(e) · z[row e].  On the extended reals the
  product is commutative whatever its factors (no finiteness is needed), so the two are the same arrays. Every other
  host operation is the same operation on the same operands in both programs. The kernel computes the edge weights
  once and uses them in both layers; the reference computes them once per layer, from the same operations.

  Each buffer a launch reads is therefore a stage of the reference (or, for the two Chebyshev terms, the stage with
  its product written the other way round), as a whole array; only the bias rows are read at an index (a [B] array
  seen as [1, B]).
-/
import proofs.«178568_j36498632082159_1_alg».proof.Proof.Gen.KernelIdeal.Frame
import proofs.«178568_j36498632082159_1_alg».proof.Proof.RefRead
import proofs.«178568_j36498632082159_1_alg».proof.Proof.LibTypedRefs
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP

/-! ## The product's commutativity -/

/-- The elementwise product of two arrays of extended reals does not depend on the order of its factors. -/
theorem mulf_comm' {s : Shape} (a b : FVec Ideal s .f32) : mulf a b = mulf b a :=
  funext fun i => mul_comm (a i) (b i)

/-! ## The Chebyshev terms with the product written features-first -/

section Terms

variable (x0 : (⟨S100000x64, .f32⟩ : BufTy).Contents (Elt Ideal)) (x1 : (⟨S2x1600000, .i32⟩ : BufTy).Contents (Elt Ideal))
  (x2 : (⟨S3x64x16, .f32⟩ : BufTy).Contents (Elt Ideal)) (x3 : (⟨S16, .f32⟩ : BufTy).Contents (Elt Ideal))

/-- `L x`, each edge's term written `x[row e] · w(e)`. -/
def tx1 : FVec Ideal S100000x64 .f32 :=
  Host.scatterAdd (F := Ideal) scatter_S100000x64_S1600000x1_S1600000x64_1_0_0_1 (val_main_v43 (F := Ideal)) (val_main_v44 (F := Ideal) x1)
    (mulf (val_main_v40 (F := Ideal) x0 x1) (val_main_v41 (F := Ideal) x1))

theorem tx1_eq : tx1 x0 x1 = val_main_v45 (F := Ideal) x0 x1 := by
  unfold tx1 val_main_v45 val_main_v42
  rw [mulf_comm' (val_main_v40 (F := Ideal) x0 x1) (val_main_v41 (F := Ideal) x1)]
  rfl

/-- `2 · L (L x) − x`, the inner products written features-first. -/
def tx2 : FVec Ideal S100000x64 .f32 :=
  subf (mulf (val_main_v63 (F := Ideal))
      (Host.scatterAdd (F := Ideal) scatter_S100000x64_S1600000x1_S1600000x64_1_0_0_1 (val_main_v60 (F := Ideal)) (val_main_v61 (F := Ideal) x1)
        (mulf (Host.gather gather_S100000x64_S1600000x1_S1600000x64_1_0_n_n_0_1_164 (tx1 x0 x1) (val_main_v56 (F := Ideal) x1))
          (val_main_v58 (F := Ideal) x1)))) x0

theorem tx2_eq : tx2 x0 x1 = val_main_v65 (F := Ideal) x0 x1 := by
  unfold tx2 val_main_v65 val_main_v64 val_main_v62 val_main_v59 val_main_v57
  rw [tx1_eq, mulf_comm' (Host.gather gather_S100000x64_S1600000x1_S1600000x64_1_0_n_n_0_1_164 (val_main_v45 (F := Ideal) x0 x1) (val_main_v56 (F := Ideal) x1))
    (val_main_v58 (F := Ideal) x1)]
  rfl

/-- `L h` for the first layer's output `h`, each edge's term written `h[row e] · w(e)`. -/
def ty1 : FVec Ideal S100000x16 .f32 :=
  Host.scatterAdd (F := Ideal) scatter_S100000x16_S1600000x1_S1600000x16_1_0_0_1 (val_main_v117 (F := Ideal)) (val_main_v118 (F := Ideal) x1)
    (mulf (val_main_v114 (F := Ideal) x0 x1 x2 x3) (val_main_v115 (F := Ideal) x1))

theorem ty1_eq : ty1 x0 x1 x2 x3 = val_main_v119 (F := Ideal) x0 x1 x2 x3 := by
  unfold ty1 val_main_v119 val_main_v116
  rw [mulf_comm' (val_main_v114 (F := Ideal) x0 x1 x2 x3) (val_main_v115 (F := Ideal) x1)]
  rfl

/-- `2 · L (L h) − h`, the inner products written features-first. -/
def ty2 : FVec Ideal S100000x16 .f32 :=
  subf (mulf (val_main_v137 (F := Ideal))
      (Host.scatterAdd (F := Ideal) scatter_S100000x16_S1600000x1_S1600000x16_1_0_0_1 (val_main_v134 (F := Ideal)) (val_main_v135 (F := Ideal) x1)
        (mulf (Host.gather gather_S100000x16_S1600000x1_S1600000x16_1_0_n_n_0_1_116 (ty1 x0 x1 x2 x3) (val_main_v130 (F := Ideal) x1))
          (val_main_v132 (F := Ideal) x1)))) (val_main_v73 (F := Ideal) x0 x1 x2 x3)

theorem ty2_eq : ty2 x0 x1 x2 x3 = val_main_v139 (F := Ideal) x0 x1 x2 x3 := by
  unfold ty2 val_main_v139 val_main_v138 val_main_v136 val_main_v133 val_main_v131
  rw [ty1_eq, mulf_comm' (Host.gather gather_S100000x16_S1600000x1_S1600000x16_1_0_n_n_0_1_116 (val_main_v119 (F := Ideal) x0 x1 x2 x3) (val_main_v130 (F := Ideal) x1))
    (val_main_v132 (F := Ideal) x1)]
  rfl

/-- The reference's second computation of the edge rows, columns and weights gives the first again. -/
theorem rows_again : val_main_v75 (F := Ideal) x1 = val_main_v1 (F := Ideal) x1 := rfl
theorem cols_again : val_main_v77 (F := Ideal) x1 = val_main_v3 (F := Ideal) x1 := rfl
set_option maxHeartbeats 1000000 in
theorem weights_again : val_main_v103 (F := Ideal) x1 = val_main_v29 (F := Ideal) x1 := rfl

end Terms

/-! ## The buffers the first launch reads -/

section Buffers

variable (m : (ℓ : Loc nD τ sig) → Buf (Elt Ideal) ℓ) (ρ : Dev nD → PrngReg)

/-- The six arguments of @main as core `c` is launched with them. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

set_option maxHeartbeats 2000000 in
theorem w3_arg0 (c : Dev nD) : W3 m ρ c (Proc.devRef .tc main_arg0) = a0 m c := by
  after_results_simp

set_option maxHeartbeats 2000000 in
theorem w3_arg4 (c : Dev nD) : W3 m ρ c (Proc.devRef .tc main_arg4) = a4 m c := by
  after_results_simp

set_option maxHeartbeats 2000000 in
theorem w3_arg5 (c : Dev nD) : W3 m ρ c (Proc.devRef .tc main_arg5) = a5 m c := by
  after_results_simp

set_option maxHeartbeats 2000000 in
/-- The edge rows. -/
theorem w3_v1 (c : Dev nD) : W3 m ρ c (Proc.devRef .tc main_v1) = val_main_v1 (F := Ideal) (a1 m c) := by
  after_results_simp
  repeat rw [TRef.toBuf_self]
  repeat rw [TRef.ofBuf_self]
  rfl

set_option maxHeartbeats 2000000 in
/-- The edge columns. -/
theorem w3_v3 (c : Dev nD) : W3 m ρ c (Proc.devRef .tc main_v3) = val_main_v3 (F := Ideal) (a1 m c) := by
  after_results_simp
  repeat rw [TRef.toBuf_self]
  repeat rw [TRef.ofBuf_self]
  rfl

set_option maxHeartbeats 2000000 in
/-- The edge weights. -/
theorem w3_v29 (c : Dev nD) : W3 m ρ c (Proc.devRef .tc main_v29) = val_main_v29 (F := Ideal) (a1 m c) := by
  after_results_simp
  repeat rw [TRef.toBuf_self]
  repeat rw [TRef.ofBuf_self]
  rfl

set_option maxHeartbeats 4000000 in
/-- The first Chebyshev term of the node features. -/
theorem w3_v42 (c : Dev nD) : W3 m ρ c (Proc.devRef .tc main_v42) = val_main_v45 (F := Ideal) (a0 m c) (a1 m c) := by
  refine Eq.trans ?_ (tx1_eq (a0 m c) (a1 m c))
  after_results_simp
  repeat rw [TRef.toBuf_self]
  repeat rw [TRef.ofBuf_self]
  rfl

set_option maxHeartbeats 8000000 in
/-- The second Chebyshev term of the node features. -/
theorem w3_v58 (c : Dev nD) : W3 m ρ c (Proc.devRef .tc main_v58) = val_main_v65 (F := Ideal) (a0 m c) (a1 m c) := by
  refine Eq.trans ?_ (tx2_eq (a0 m c) (a1 m c))
  after_results_simp
  repeat rw [TRef.toBuf_self]
  repeat rw [TRef.ofBuf_self]
  rfl

set_option maxHeartbeats 2000000 in
/-- The first layer's three weight matrices. -/
theorem w3_v60 (c : Dev nD) : W3 m ρ c (Proc.devRef .tc main_v60) = val_main_v31 (F := Ideal) (a2 m c) := by
  after_results_simp
  repeat rw [TRef.toBuf_self]
  repeat rw [TRef.ofBuf_self]
  rfl

set_option maxHeartbeats 2000000 in
theorem w3_v62 (c : Dev nD) : W3 m ρ c (Proc.devRef .tc main_v62) = val_main_v47 (F := Ideal) (a2 m c) := by
  after_results_simp
  repeat rw [TRef.toBuf_self]
  repeat rw [TRef.ofBuf_self]
  rfl

set_option maxHeartbeats 2000000 in
theorem w3_v64 (c : Dev nD) : W3 m ρ c (Proc.devRef .tc main_v64) = val_main_v67 (F := Ideal) (a2 m c) := by
  after_results_simp
  repeat rw [TRef.toBuf_self]
  repeat rw [TRef.ofBuf_self]
  rfl

/-- A `[b]` array seen as `[1, b]` reads, at `(0, q)`, the array at `q`: both row-major positions are `q`. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

set_option maxHeartbeats 2000000 in
/-- The first layer's bias row, at `(0, q)`. -/
theorem w3_v65 (c : Dev nD) (q : Fin 16) : W3 m ρ c (Proc.devRef .tc main_v65) (ix2 (0 : Fin 1) q) = a3 m c (ix1 q) := by
  have e : W3 m ρ c (Proc.devRef .tc main_v65) = shapeCast S1x16 (a3 m c) shapeCasts_S16_S1x16 := by
    after_results_simp
    rfl
  rw [e]
  exact shapeCast_b_1b_apply (a3 m c) shapeCasts_S16_S1x16 0 q

end Buffers

/-! ## The buffers the second launch reads -/

section Second

variable (m : (ℓ : Loc nD τ sig) → Buf (Elt Ideal) ℓ) (ρ : Dev nD → PrngReg)

/-- The first launch writes none of these: they hold after it what they held before. The reference's second layer
    names its own recomputed rows, columns and weights, which are the first ones again. -/
theorem w4_v1 (c : Dev nD) : W4 m ρ c (Proc.devRef .tc main_v1) = val_main_v75 (F := Ideal) (a1 m c) :=
  ((W4_of_ne m ρ c main_v1 (by decide)).trans (w3_v1 m ρ c)).trans (rows_again (a1 m c)).symm
theorem w4_v3 (c : Dev nD) : W4 m ρ c (Proc.devRef .tc main_v3) = val_main_v77 (F := Ideal) (a1 m c) :=
  ((W4_of_ne m ρ c main_v3 (by decide)).trans (w3_v3 m ρ c)).trans (cols_again (a1 m c)).symm
theorem w4_v29 (c : Dev nD) : W4 m ρ c (Proc.devRef .tc main_v29) = val_main_v103 (F := Ideal) (a1 m c) :=
  ((W4_of_ne m ρ c main_v29 (by decide)).trans (w3_v29 m ρ c)).trans (weights_again (a1 m c)).symm
theorem w4_arg4 (c : Dev nD) : W4 m ρ c (Proc.devRef .tc main_arg4) = a4 m c :=
  (W4_of_ne m ρ c main_arg4 (by decide)).trans (w3_arg4 m ρ c)
theorem w4_arg5 (c : Dev nD) : W4 m ρ c (Proc.devRef .tc main_arg5) = a5 m c :=
  (W4_of_ne m ρ c main_arg5 (by decide)).trans (w3_arg5 m ρ c)

variable (c : Dev nD)
  (hH : W4 m ρ c (Proc.devRef .tc main_v66) = val_main_v73 (F := Ideal) (a0 m c) (a1 m c) (a2 m c) (a3 m c))
include hH

set_option maxHeartbeats 2000000 in
/-- The first layer's output is still there when the second launch starts. -/
theorem w5_v66 : W5 m ρ c (Proc.devRef .tc main_v66) = val_main_v73 (F := Ideal) (a0 m c) (a1 m c) (a2 m c) (a3 m c) := by
  after_results_simp
  exact hH

set_option maxHeartbeats 4000000 in
/-- The first Chebyshev term of the first layer's output. -/
theorem w5_v79 : W5 m ρ c (Proc.devRef .tc main_v79) = val_main_v119 (F := Ideal) (a0 m c) (a1 m c) (a2 m c) (a3 m c) := by
  refine Eq.trans ?_ (ty1_eq (a0 m c) (a1 m c) (a2 m c) (a3 m c))
  after_results_simp
  rw [hH, w4_v1, w4_v3, w4_v29]
  rfl

set_option maxHeartbeats 8000000 in
/-- The second Chebyshev term of the first layer's output. -/
theorem w5_v95 : W5 m ρ c (Proc.devRef .tc main_v95) = val_main_v139 (F := Ideal) (a0 m c) (a1 m c) (a2 m c) (a3 m c) := by
  refine Eq.trans ?_ (ty2_eq (a0 m c) (a1 m c) (a2 m c) (a3 m c))
  after_results_simp
  rw [hH, w4_v1, w4_v3, w4_v29]
  rfl

omit hH in
set_option maxHeartbeats 2000000 in
/-- The second layer's three weight matrices. -/
theorem w5_v97 : W5 m ρ c (Proc.devRef .tc main_v97) = val_main_v105 (F := Ideal) (a4 m c) := by
  after_results_simp
  rw [w4_arg4]
  rfl

omit hH in
set_option maxHeartbeats 2000000 in
theorem w5_v99 : W5 m ρ c (Proc.devRef .tc main_v99) = val_main_v121 (F := Ideal) (a4 m c) := by
  after_results_simp
  rw [w4_arg4]
  rfl

omit hH in
set_option maxHeartbeats 2000000 in
theorem w5_v101 : W5 m ρ c (Proc.devRef .tc main_v101) = val_main_v141 (F := Ideal) (a4 m c) := by
  after_results_simp
  rw [w4_arg4]
  rfl

omit hH in
set_option maxHeartbeats 2000000 in
/-- The second layer's bias row, at `(0, q)`. -/
theorem w5_v102 (q : Fin 40) : W5 m ρ c (Proc.devRef .tc main_v102) (ix2 (0 : Fin 1) q) = a5 m c (ix1 q) := by
  have e : W5 m ρ c (Proc.devRef .tc main_v102) = shapeCast S1x40 (a5 m c) shapeCasts_S40_S1x40 := by
    after_results_simp
    rw [w4_arg5]
    rfl
  rw [e]
  exact shapeCast_b_1b_apply (a5 m c) shapeCasts_S40_S1x40 0 q

end Second

end Cert.KernelIdeal.Glue

end
-- ==== Proof.Spec.lean ====
/-
  The two dense stages of a Chebyshev graph convolution network of order three, as functions of whole arrays read
  index by index over the extended reals.

  A layer combines three feature arrays `t0, t1, t2` of shape [A, K] (the node features and their first two Chebyshev
  polynomials under the scaled graph Laplacian) through three weight matrices `w0, w1, w2` of shape [K, B] and a bias
  row `b`: entry (n, q) is

      ((Σₖ t0[n,k]·w0[k,q] + Σₖ t1[n,k]·w1[k,q]) + Σₖ t2[n,k]·w2[k,q]) + b[q]            (`mix3`)

  with the additions grouped exactly so. The first layer follows it by `max · 0`; the second by a logarithmic
  softmax along the row: with `M` the maximum of the row (folded from a starting value `e`), entry (n, q) is
  `(a[q] - M) - log (Σ_c exp (a[c] - M))`.

  Entry (n, q) of either layer depends on row `n` of the feature arrays only: this is what lets a kernel compute the
  layer one block of rows at a time.
-/
import Mathlib.Data.Finset.Fold
import Idealize.ShloMosaic.PureOps.Ideal
import Idealize.ShloMosaic.Lib.ValueIdx

noncomputable section

open scoped BigOperators

namespace Cert.Cheb

open Idealize.ShloMosaic Idealize.ShloMosaic.ValueIdx

/-- Three rows against three columns, plus a bias: `((r0·c0 + r1·c1) + r2·c2) + b`, each product a sum over `k`. -/
def mix3 {K : ℕ} (r0 r1 r2 c0 c1 c2 : Fin K → EReal) (b : EReal) : EReal :=
  ((∑ k, r0 k * c0 k) + (∑ k, r1 k * c1 k)) + (∑ k, r2 k * c2 k) + b

/-- The maximum of a row, folded from the starting value `e`. -/
def rowMax {B : ℕ} (e : EReal) (a : Fin B → EReal) : EReal :=
  (Finset.univ : Finset (Fin B)).fold max e a

/-- The folded maximum is at least its starting value, so taking the maximum with it once more changes nothing. -/
theorem max_rowMax {B : ℕ} (e : EReal) (a : Fin B → EReal) : max e (rowMax e a) = rowMax e a :=
  max_eq_right ((Finset.le_fold_max e).mpr (Or.inl le_rfl))

/-- The logarithmic softmax of a row `a`, at position `q`, shifted by the row's maximum. -/
def logSoftmaxRow {B : ℕ} (e : EReal) (a : Fin B → EReal) (q : Fin B) : EReal :=
  (a q - rowMax e a) - Ideal.log (∑ c, Ideal.exp (a c - rowMax e a))

/-- The pre-activation of a layer at row `n`, column `q`. -/
def pre {A K B : ℕ} (t0 t1 t2 : (⟨2, ![A, K]⟩ : Shape).Idx → EReal) (w0 w1 w2 : (⟨2, ![K, B]⟩ : Shape).Idx → EReal)
    (b : Fin B → EReal) (n : Fin A) (q : Fin B) : EReal :=
  mix3 (fun k => t0 (ix2 n k)) (fun k => t1 (ix2 n k)) (fun k => t2 (ix2 n k))
    (fun k => w0 (ix2 k q)) (fun k => w1 (ix2 k q)) (fun k => w2 (ix2 k q)) (b q)

/-- The first layer: the pre-activation cut off below at zero. -/
def layer1 {A K B : ℕ} (t0 t1 t2 : (⟨2, ![A, K]⟩ : Shape).Idx → EReal) (w0 w1 w2 : (⟨2, ![K, B]⟩ : Shape).Idx → EReal)
    (b : Fin B → EReal) : (⟨2, ![A, B]⟩ : Shape).Idx → EReal :=
  fun i => max (pre t0 t1 t2 w0 w1 w2 b (i 0) (i 1)) 0

/-- The second layer: the logarithmic softmax of each row of the pre-activation. -/
def layer2 {A K B : ℕ} (e : EReal) (t0 t1 t2 : (⟨2, ![A, K]⟩ : Shape).Idx → EReal)
    (w0 w1 w2 : (⟨2, ![K, B]⟩ : Shape).Idx → EReal) (b : Fin B → EReal) : (⟨2, ![A, B]⟩ : Shape).Idx → EReal :=
  fun i => logSoftmaxRow e (fun q => pre t0 t1 t2 w0 w1 w2 b (i 0) q) (i 1)

/-- The pre-activation at row `n` reads the feature arrays along row `n` only. -/
theorem pre_congr_rows {A A' K B : ℕ} (t0 t1 t2 : (⟨2, ![A, K]⟩ : Shape).Idx → EReal)
    (s0 s1 s2 : (⟨2, ![A', K]⟩ : Shape).Idx → EReal) (w0 w1 w2 : (⟨2, ![K, B]⟩ : Shape).Idx → EReal)
    (b : Fin B → EReal) (n : Fin A) (n' : Fin A')
    (h0 : ∀ k, t0 (ix2 n k) = s0 (ix2 n' k)) (h1 : ∀ k, t1 (ix2 n k) = s1 (ix2 n' k))
    (h2 : ∀ k, t2 (ix2 n k) = s2 (ix2 n' k)) (q : Fin B) :
    pre t0 t1 t2 w0 w1 w2 b n q = pre s0 s1 s2 w0 w1 w2 b n' q := by
  unfold pre
  rw [funext h0, funext h1, funext h2]

end Cert.Cheb

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Payload0.lean ====
/-
  The first launch's body, read at an index.

  On a block of 10000 rows the body forms, from the three feature blocks `b0, b1, b2` ([10000, 64]), the three weight
  matrices `w0, w1, w2` ([64, 16]) and the bias row `bb` ([1, 16]),

      max (((b0·w0 + b1·w1) + b2·w2) + bias) 0

  with the matrix products taken after a change of float format that is the identity on the extended reals, each into a
  zero accumulator. Entry (p, q) is therefore the first layer of the specification at (p, q): the three contraction sums
  over `k`, the bias at `q`, cut off below at zero.
-/
import proofs.«178568_j36498632082159_1_alg».proof.Proof.Gen.KernelIdeal.Skeleton
import proofs.«178568_j36498632082159_1_alg».proof.Proof.Spec
import proofs.«178568_j36498632082159_1_alg».proof.Proof.LibRowOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay0

open Cert.KernelIdeal Cert.KernelIdeal.Gen Idealize.ShloMosaic Idealize.ShloMosaic.ValueIdx

/-- One of the body's three products at (p, q): the format change is the identity, the accumulator is zero, so the
    entry is the contraction sum of row `p` of the block with column `q` of the weights. -/
theorem prod_apply (l : Vec Ideal S10000x64 .f32) (r : Vec Ideal S64x16 .f32) (p : Fin 10000) (q : Fin 16) :
    matmul (F := Ideal) dot_S10000x64_S64x16_S10000x16_1_0_0_1_n_n none
        (truncf .bf16 l bitsLt_bf16_f32) (truncf .bf16 r bitsLt_bf16_f32) (constant S10000x16 .f32 0x00000000#32) (ix2 p q)
      = ∑ k : Fin 64, l (ix2 p k) * r (ix2 k q) :=
  RowOps.matmul_zero_plain_apply (φ₁ := .bf16) (φ₂ := .bf16) dot_S10000x64_S64x16_S10000x16_1_0_0_1_n_n ⟨_, rfl⟩ none
    (fun i => l i) (fun i => r i) p q

/-- The bias row repeated down the block: at (p, q) it is the row's entry `q`. -/
theorem bias_apply (bb : Vec Ideal S1x16 .f32) (p : Fin 10000) (q : Fin 16) :
    broadcastTo S10000x16 bb broadcasts_S1x16_S10000x16 (ix2 p q) = bb (ix2 (0 : Fin 1) q) := by
  refine broadcastTo_apply bb broadcasts_S1x16_S10000x16 (ix2 p q) (ix2 (0 : Fin 1) q) fun ax => ?_
  match ax with
  | ⟨0, _⟩ => rfl
  | ⟨1, _⟩ => rfl

/-- The body's stored value is the first layer of its blocks. -/
theorem k0_pay1_eq (b0 b1 b2 : Vec Ideal S10000x64 .f32) (w0 w1 w2 : Vec Ideal S64x16 .f32) (bb : Vec Ideal S1x16 .f32) :
    k0_pay1 (F := Ideal) b0 b1 b2 w0 w1 w2 bb
      = Cert.Cheb.layer1 b0 b1 b2 w0 w1 w2 (fun q => bb (ix2 (0 : Fin 1) q)) := by
  funext j
  obtain ⟨p, q, rfl⟩ : ∃ (p : Fin 10000) (q : Fin 16), j = ix2 p q := ⟨j 0, j 1, eq_ix2 j⟩
  unfold k0_pay1
  simp only [shapeCast_self]
  show max (((matmul (F := Ideal) dot_S10000x64_S64x16_S10000x16_1_0_0_1_n_n none
        (truncf .bf16 b0 bitsLt_bf16_f32) (truncf .bf16 w0 bitsLt_bf16_f32) (constant S10000x16 .f32 0x00000000#32) (ix2 p q)
      + matmul (F := Ideal) dot_S10000x64_S64x16_S10000x16_1_0_0_1_n_n none
        (truncf .bf16 b1 bitsLt_bf16_f32) (truncf .bf16 w1 bitsLt_bf16_f32) (constant S10000x16 .f32 0x00000000#32) (ix2 p q))
      + matmul (F := Ideal) dot_S10000x64_S64x16_S10000x16_1_0_0_1_n_n none
        (truncf .bf16 b2 bitsLt_bf16_f32) (truncf .bf16 w2 bitsLt_bf16_f32) (constant S10000x16 .f32 0x00000000#32) (ix2 p q))
      + broadcastTo S10000x16 bb broadcasts_S1x16_S10000x16 (ix2 p q)) (Ideal.ofBits .f32 0x00000000#32)
    = max (Cert.Cheb.pre b0 b1 b2 w0 w1 w2 (fun q => bb (ix2 (0 : Fin 1) q)) p q) 0
  rw [prod_apply, prod_apply, prod_apply, bias_apply, Ideal.ofBits_zero_f32]
  rfl

end Cert.KernelIdeal.Pay0

end
-- ==== Proof.Blocks0.lean ====
/-
  From blocks to the whole array, for the first launch.

  The launch walks ten grid points. At point `t` the three feature arrays ([100000, 64]) are read through the block of
  rows 10000·t … 10000·t + 9999, the three weight matrices ([64, 16]) and the bias row ([1, 16]) whole, and the body's
  result, the first layer of those blocks, is written back to the same rows of the [100000, 16] output. An entry of the
  first layer depends on its own row of the feature arrays only, so the block written at `t` is the block of rows of
  the first layer of the WHOLE arrays; the ten blocks cover every row (row `r` lies in block `r / 10000`), so the output
  array ends holding the first layer of the arrays as the launch finds them.
-/
import proofs.«178568_j36498632082159_1_alg».proof.Proof.Gen.KernelIdeal.Frame
import proofs.«178568_j36498632082159_1_alg».proof.Proof.Payload0
import proofs.«178568_j36498632082159_1_alg».proof.Proof.Spec
import Idealize.ShloMosaic.Lib.Pipeline.Value
import Idealize.ShloMosaic.Lib.ValueIdx

set_option maxRecDepth 16384

noncomputable section

namespace Cert.KernelIdeal.Blk0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The first layer of the arrays the launch finds. -/
abbrev G (c : Dev nD) : S100000x16.Idx → EReal :=
  Cert.Cheb.layer1 (V c main_arg0) (V c main_v42) (V c main_v58) (V c main_v60) (V c main_v62) (V c main_v64)
    (fun q => V c main_v65 (ix2 (0 : Fin 1) q))

/-- The printed index maps over the grid: the three feature windows move with the output window along the rows and
    stay at column block 0; the weights and the bias stay at block (0, 0); the output's row block is at most 9. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 ∧ win0_7.index t (1 : Fin 2) = 0 :=
  (by decide +kernel : ∀ t : Fin grid0.N, _)

/-- Every row block is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-- The first layer at an index of a block against the first layer at an index of the whole arrays: equal when the
    block's row is the arrays' row, entry by entry, the weights and bias are the same, and the columns agree. -/
theorem layer1_block {A : ℕ} (T0 T1 T2 : (⟨2, ![A, 64]⟩ : Shape).Idx → EReal) (B0 B1 B2 : S10000x64.Idx → EReal)
    (w0 w1 w2 W0 W1 W2 : S64x16.Idx → EReal) (b b' : Fin 16 → EReal) (y : S10000x16.Idx) (i : (⟨2, ![A, 16]⟩ : Shape).Idx)
    (h0 : ∀ k, B0 (ix2 (y 0) k) = T0 (ix2 (i 0) k)) (h1 : ∀ k, B1 (ix2 (y 0) k) = T1 (ix2 (i 0) k))
    (h2 : ∀ k, B2 (ix2 (y 0) k) = T2 (ix2 (i 0) k)) (hw0 : w0 = W0) (hw1 : w1 = W1) (hw2 : w2 = W2) (hb : b = b')
    (hq : y 1 = i 1) :
    Cert.Cheb.layer1 B0 B1 B2 w0 w1 w2 b y = Cert.Cheb.layer1 T0 T1 T2 W0 W1 W2 b' i := by
  subst hw0 hw1 hw2 hb
  obtain ⟨p, q, rfl⟩ : ∃ (p : Fin 10000) (q : Fin 16), y = ix2 p q := ⟨y 0, y 1, eq_ix2 y⟩
  obtain ⟨n, q', rfl⟩ : ∃ (n : Fin A) (q' : Fin 16), i = ix2 n q' := ⟨i 0, i 1, eq_ix2 i⟩
  have hq' : q = q' := hq
  subst hq'
  show max (Cert.Cheb.pre B0 B1 B2 w0 w1 w2 b p q) 0 = max (Cert.Cheb.pre T0 T1 T2 w0 w1 w2 b n q) 0
  rw [Cert.Cheb.pre_congr_rows B0 B1 B2 T0 T1 T2 w0 w1 w2 b p n h0 h1 h2]

/-- What point `t` writes back is block `t` of the first layer of the arrays as the launch finds them. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S10000x64) hz, View.ld_unit_zero (S := S64x16) hz, View.ld_unit_zero (S := S1x16) hz]
  rw [Pay0.k0_pay1_eq]
  obtain ⟨e00, e01, e10, e11, e20, e21, e30, e31, e40, e41, e50, e51, e60, e61, e7, e71⟩ := idx_facts t
  funext y
  show Cert.Cheb.layer1 (iblk0 V c 0 t) (iblk0 V c 1 t) (iblk0 V c 2 t) (iblk0 V c 3 t) (iblk0 V c 4 t) (iblk0 V c 5 t)
      (fun q => iblk0 V c 6 t (ix2 (0 : Fin 1) q)) y = G V c (((cfg0.win 7).blk t).view.emb y)
  refine layer1_block (A := 100000) (V c main_arg0) (V c main_v42) (V c main_v58) (iblk0 V c 0 t) (iblk0 V c 1 t) (iblk0 V c 2 t)
    (iblk0 V c 3 t) (iblk0 V c 4 t) (iblk0 V c 5 t) (V c main_v60) (V c main_v62) (V c main_v64)
    (fun q => iblk0 V c 6 t (ix2 (0 : Fin 1) q)) (fun q => V c main_v65 (ix2 (0 : Fin 1) q)) y (((cfg0.win 7).blk t).view.emb y)
    ?_ ?_ ?_ ?_ ?_ ?_ ?_ ?_
  · intro k
    show V c main_arg0 (((cfg0.win 0).blk t).view.emb (ix2 (y 0) k)) = V c main_arg0 (ix2 ((((cfg0.win 7).blk t).view.emb y) 0) k)
    refine congrArg _ (funext fun a => Fin.ext ?_)
    match a with
    | ⟨0, _⟩ => show win0_0.index t (0 : Fin 2) * 10000 + 1 * (y 0).val = win0_7.index t (0 : Fin 2) * 10000 + 1 * (y 0).val; omega
    | ⟨1, _⟩ => show win0_0.index t (1 : Fin 2) * 64 + 1 * k.val = k.val; omega
  · intro k
    show V c main_v42 (((cfg0.win 1).blk t).view.emb (ix2 (y 0) k)) = V c main_v42 (ix2 ((((cfg0.win 7).blk t).view.emb y) 0) k)
    refine congrArg _ (funext fun a => Fin.ext ?_)
    match a with
    | ⟨0, _⟩ => show win0_1.index t (0 : Fin 2) * 10000 + 1 * (y 0).val = win0_7.index t (0 : Fin 2) * 10000 + 1 * (y 0).val; omega
    | ⟨1, _⟩ => show win0_1.index t (1 : Fin 2) * 64 + 1 * k.val = k.val; omega
  · intro k
    show V c main_v58 (((cfg0.win 2).blk t).view.emb (ix2 (y 0) k)) = V c main_v58 (ix2 ((((cfg0.win 7).blk t).view.emb y) 0) k)
    refine congrArg _ (funext fun a => Fin.ext ?_)
    match a with
    | ⟨0, _⟩ => show win0_2.index t (0 : Fin 2) * 10000 + 1 * (y 0).val = win0_7.index t (0 : Fin 2) * 10000 + 1 * (y 0).val; omega
    | ⟨1, _⟩ => show win0_2.index t (1 : Fin 2) * 64 + 1 * k.val = k.val; omega
  · funext z
    show V c main_v60 (((cfg0.win 3).blk t).view.emb z) = V c main_v60 z
    refine congrArg _ (funext fun a => Fin.ext ?_)
    match a with
    | ⟨0, _⟩ => show win0_3.index t (0 : Fin 2) * 64 + 1 * (z 0).val = (z 0).val; omega
    | ⟨1, _⟩ => show win0_3.index t (1 : Fin 2) * 16 + 1 * (z 1).val = (z 1).val; omega
  · funext z
    show V c main_v62 (((cfg0.win 4).blk t).view.emb z) = V c main_v62 z
    refine congrArg _ (funext fun a => Fin.ext ?_)
    match a with
    | ⟨0, _⟩ => show win0_4.index t (0 : Fin 2) * 64 + 1 * (z 0).val = (z 0).val; omega
    | ⟨1, _⟩ => show win0_4.index t (1 : Fin 2) * 16 + 1 * (z 1).val = (z 1).val; omega
  · funext z
    show V c main_v64 (((cfg0.win 5).blk t).view.emb z) = V c main_v64 z
    refine congrArg _ (funext fun a => Fin.ext ?_)
    match a with
    | ⟨0, _⟩ => show win0_5.index t (0 : Fin 2) * 64 + 1 * (z 0).val = (z 0).val; omega
    | ⟨1, _⟩ => show win0_5.index t (1 : Fin 2) * 16 + 1 * (z 1).val = (z 1).val; omega
  · funext q
    show V c main_v65 (((cfg0.win 6).blk t).view.emb (ix2 (0 : Fin 1) q)) = V c main_v65 (ix2 (0 : Fin 1) q)
    refine congrArg _ (funext fun a => Fin.ext ?_)
    match a with
    | ⟨0, _⟩ => show win0_6.index t (0 : Fin 2) * 1 + 1 * 0 = 0; omega
    | ⟨1, _⟩ => show win0_6.index t (1 : Fin 2) * 16 + 1 * q.val = q.val; omega
  · refine Fin.ext ?_
    show (y 1).val = win0_7.index t (1 : Fin 2) * 16 + 1 * (y 1).val
    omega

/-- An index of the output array is in point `t`'s block iff each coordinate is in the block's range on its axis. -/
theorem mem_blk (t : Fin cfg0.N) (i : S100000x16.Idx) :
    i ∈ ((cfg0.win 7).blk t).view.set ↔ ∀ a : Fin 2, win0_7.index t a * S10000x16.size a ≤ (i a).val
      ∧ (i a).val < win0_7.index t a * S10000x16.size a + S10000x16.size a := by
  show i ∈ ((View.whole main_v66).slice (win0_7.rect t)).set ↔ _
  rw [View.set_slice_whole, Rect.mem_set_unit]
  exact Iff.rfl

/-- Every index of the output array lies in some point's block: row `r` in the block of point `r / 10000`. -/
theorem cover (i : S100000x16.Idx) :
    ∃ t : Fin cfg0.N, (cfg0.win 7).flush t = true ∧ i ∈ ((cfg0.win 7).blk t).view.set := by
  have hi0 : (i 0).val < 100000 := (i 0).isLt
  have hi1 : (i 1).val < 16 := (i 1).isLt
  obtain ⟨t, ht⟩ := idx_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 16 ≤ (i 1).val ∧ (i 1).val < win0_7.index t (1 : Fin 2) * 16 + 16; omega

/-- The output array after the launch: the first layer of the arrays the launch finds. -/
theorem arr0_eq (c : Dev nD) : (dat0 V c).arrAt 7 cfg0.N = G V c :=
  (dat0 V c).arrAt_eq_of_cover 7 (G V c) (fun t _ => flushed_eq V c t) (cover)

end Cert.KernelIdeal.Blk0

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload1.lean ====
/-
  The second launch's body, read at an index.

  On a block of 10000 rows the body forms, from the three feature blocks `b0, b1, b2` ([10000, 16]), the three weight
  matrices `w0, w1, w2` ([16, 40]) and the bias row `bb` ([1, 40]), the pre-activation

      a = ((b0·w0 + b1·w1) + b2·w2) + bias

  with the matrix products taken after a change of float format that is the identity on the extended reals, each into a
  zero accumulator; then, row by row, the maximum `M` of the row (folded from a starting word), the shifted row
  `s = a - M`, the sum `Σ` of `exp s` along the row, and `s - log Σ`. Entry (p, q) is therefore the logarithmic softmax
  of row `p` of the pre-activation at `q`: the second layer of the specification.

  The row maximum and the row sum are reductions along axis 1 of a [10000, 40] array to a [10000] array, seen as a
  column [10000, 1] and repeated along the rows to [10000, 40] again: read at (p, q) each is the reduction of row `p`.
-/
import proofs.«178568_j36498632082159_1_alg».proof.Proof.Gen.KernelIdeal.Skeleton
import proofs.«178568_j36498632082159_1_alg».proof.Proof.Spec
import proofs.«178568_j36498632082159_1_alg».proof.Proof.LibRowOps
import proofs.«178568_j36498632082159_1_alg».proof.Proof.LibColumns
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay1

open Cert.KernelIdeal Cert.KernelIdeal.Gen Idealize.ShloMosaic Idealize.ShloMosaic.ValueIdx

/-! ## The pre-activation -/

/-- One of the body's three products at (p, q): the format change is the identity, the accumulator is zero, so the
    entry is the contraction sum of row `p` of the block with column `q` of the weights. -/
theorem prod_apply (l : Vec Ideal S10000x16 .f32) (r : Vec Ideal S16x40 .f32) (p : Fin 10000) (q : Fin 40) :
    matmul (F := Ideal) dot_S10000x16_S16x40_S10000x40_1_0_0_1_n_n none
        (truncf .bf16 l bitsLt_bf16_f32) (truncf .bf16 r bitsLt_bf16_f32) (constant S10000x40 .f32 0x00000000#32) (ix2 p q)
      = ∑ k : Fin 16, l (ix2 p k) * r (ix2 k q) :=
  RowOps.matmul_zero_plain_apply (φ₁ := .bf16) (φ₂ := .bf16) dot_S10000x16_S16x40_S10000x40_1_0_0_1_n_n ⟨_, rfl⟩ none
    (fun i => l i) (fun i => r i) p q

/-- The bias row repeated down the block: at (p, q) it is the row's entry `q`. -/
theorem bias_apply (bb : Vec Ideal S1x40 .f32) (p : Fin 10000) (q : Fin 40) :
    broadcastTo S10000x40 bb broadcasts_S1x40_S10000x40 (ix2 p q) = bb (ix2 (0 : Fin 1) q) := by
  refine broadcastTo_apply bb broadcasts_S1x40_S10000x40 (ix2 p q) (ix2 (0 : Fin 1) q) fun ax => ?_
  match ax with
  | ⟨0, _⟩ => rfl
  | ⟨1, _⟩ => rfl

/-- The block's pre-activation as the body forms it. -/
def preV (b0 b1 b2 : Vec Ideal S10000x16 .f32) (w0 w1 w2 : Vec Ideal S16x40 .f32) (bb : Vec Ideal S1x40 .f32) :
    FVec Ideal S10000x40 .f32 :=
  addf
    (addf
      (addf
        (matmul (F := Ideal) dot_S10000x16_S16x40_S10000x40_1_0_0_1_n_n none
          (truncf .bf16 b0 bitsLt_bf16_f32) (truncf .bf16 w0 bitsLt_bf16_f32) (constant S10000x40 .f32 0x00000000#32))
        (matmul (F := Ideal) dot_S10000x16_S16x40_S10000x40_1_0_0_1_n_n none
          (truncf .bf16 b1 bitsLt_bf16_f32) (truncf .bf16 w1 bitsLt_bf16_f32) (constant S10000x40 .f32 0x00000000#32)))
      (matmul (F := Ideal) dot_S10000x16_S16x40_S10000x40_1_0_0_1_n_n none
        (truncf .bf16 b2 bitsLt_bf16_f32) (truncf .bf16 w2 bitsLt_bf16_f32) (constant S10000x40 .f32 0x00000000#32)))
    (broadcastTo S10000x40 bb broadcasts_S1x40_S10000x40)

/-- The pre-activation at (p, q) is the specification's. -/
theorem preV_apply (b0 b1 b2 : Vec Ideal S10000x16 .f32) (w0 w1 w2 : Vec Ideal S16x40 .f32) (bb : Vec Ideal S1x40 .f32)
    (p : Fin 10000) (q : Fin 40) :
    preV b0 b1 b2 w0 w1 w2 bb (ix2 p q)
      = Cert.Cheb.pre b0 b1 b2 w0 w1 w2 (fun q => bb (ix2 (0 : Fin 1) q)) p q := by
  show ((matmul (F := Ideal) dot_S10000x16_S16x40_S10000x40_1_0_0_1_n_n none
        (truncf .bf16 b0 bitsLt_bf16_f32) (truncf .bf16 w0 bitsLt_bf16_f32) (constant S10000x40 .f32 0x00000000#32) (ix2 p q)
      + matmul (F := Ideal) dot_S10000x16_S16x40_S10000x40_1_0_0_1_n_n none
        (truncf .bf16 b1 bitsLt_bf16_f32) (truncf .bf16 w1 bitsLt_bf16_f32) (constant S10000x40 .f32 0x00000000#32) (ix2 p q))
      + matmul (F := Ideal) dot_S10000x16_S16x40_S10000x40_1_0_0_1_n_n none
        (truncf .bf16 b2 bitsLt_bf16_f32) (truncf .bf16 w2 bitsLt_bf16_f32) (constant S10000x40 .f32 0x00000000#32) (ix2 p q))
      + broadcastTo S10000x40 bb broadcasts_S1x40_S10000x40 (ix2 p q)
    = Cert.Cheb.pre b0 b1 b2 w0 w1 w2 (fun q => bb (ix2 (0 : Fin 1) q)) p q
  rw [prod_apply, prod_apply, prod_apply, bias_apply]
  rfl

/-! ## The row reductions -/

/-- The index of a [10000, 40] array lying over row `p` with coordinate `k` on the reduced axis is (p, k). -/
theorem lift_row (p : Fin 10000) (k : Fin 40) :
    reduces_S10000x40_S10000.lift (ix1 p) k = (ix2 p k : S10000x40.Idx) := by
  funext c
  apply Fin.ext
  fin_cases c <;> rfl

/-- The row maximum at `p`: the fold of `max` over row `p`, from the starting word's value. -/
theorem rowMax_apply (a : FVec Ideal S10000x40 .f32) (p : Fin 10000) :
    multiReduction (F := Ideal) .maximumf [1] S10000 a 0xFF800000#32 reduces_S10000x40_S10000 (.inl rfl) rfl (ix1 p)
      = Cert.Cheb.rowMax (Ideal.ofBits .f32 0xFF800000#32) (fun k : Fin 40 => a (ix2 p k)) := by
  refine (Ideal.multiReduction_maximumf_single a 0xFF800000#32 reduces_S10000x40_S10000 (.inl rfl) rfl (ix1 p)).trans ?_
  have e : (a ∘ reduces_S10000x40_S10000.lift (ix1 p)) = fun k : Fin 40 => a (ix2 p k) :=
    funext fun k => congrArg a (lift_row p k)
  rw [e]
  rfl

/-- The row sum at `p`: the sum over row `p`. -/
theorem rowSum_apply (a : FVec Ideal S10000x40 .f32) (p : Fin 10000) :
    multiReduction (F := Ideal) .add [1] S10000 a 0x00000000#32 reduces_S10000x40_S10000 (.inl rfl) rfl (ix1 p)
      = ∑ k : Fin 40, a (ix2 p k) := by
  refine (Ideal.multiReduction_add_single a 0x00000000#32 reduces_S10000x40_S10000 (.inl rfl) rfl (ix1 p)).trans ?_
  exact Finset.sum_congr rfl fun k _ => congrArg a (lift_row p k)

/-! ## The shifted row and the result -/

/-- A row-reduced array seen as a column and repeated along the rows: at (p, q) it is the reduced array at `p`. -/
theorem column_apply (x : FVec Ideal S10000 .f32) (p : Fin 10000) (q : Fin 40) :
    broadcastTo S10000x40 (shapeCast S10000x1 x shapeCasts_S10000_S10000x1) broadcasts_S10000x1_S10000x40 (ix2 p q)
      = x (ix1 p) :=
  (broadcastTo_a1_ab_apply (shapeCast S10000x1 x shapeCasts_S10000_S10000x1) broadcasts_S10000x1_S10000x40 p q).trans
    (shapeCast_a_a1_apply x shapeCasts_S10000_S10000x1 p 0)

/-- The block with each row's maximum subtracted. -/
def shiftV (a : FVec Ideal S10000x40 .f32) : FVec Ideal S10000x40 .f32 :=
  subf a (broadcastTo S10000x40
    (shapeCast S10000x1
      (multiReduction (F := Ideal) .maximumf [1] S10000 a 0xFF800000#32 reduces_S10000x40_S10000 (.inl rfl) rfl)
      shapeCasts_S10000_S10000x1) broadcasts_S10000x1_S10000x40)

theorem shiftV_apply (a : FVec Ideal S10000x40 .f32) (p : Fin 10000) (q : Fin 40) :
    shiftV a (ix2 p q)
      = a (ix2 p q) - Cert.Cheb.rowMax (Ideal.ofBits .f32 0xFF800000#32) (fun k : Fin 40 => a (ix2 p k)) := by
  show a (ix2 p q) - broadcastTo S10000x40
      (shapeCast S10000x1
        (multiReduction (F := Ideal) .maximumf [1] S10000 a 0xFF800000#32 reduces_S10000x40_S10000 (.inl rfl) rfl)
        shapeCasts_S10000_S10000x1) broadcasts_S10000x1_S10000x40 (ix2 p q) = _
  rw [column_apply, rowMax_apply]

/-- The shifted block minus, on each row, the logarithm of the row's sum of exponentials. -/
def outV (s : FVec Ideal S10000x40 .f32) : FVec Ideal S10000x40 .f32 :=
  subf s (broadcastTo S10000x40
    (log (shapeCast S10000x1
      (multiReduction (F := Ideal) .add [1] S10000 (exp s) 0x00000000#32 reduces_S10000x40_S10000 (.inl rfl) rfl)
      shapeCasts_S10000_S10000x1)) broadcasts_S10000x1_S10000x40)

theorem outV_apply (s : FVec Ideal S10000x40 .f32) (p : Fin 10000) (q : Fin 40) :
    outV s (ix2 p q) = s (ix2 p q) - Ideal.log (∑ k : Fin 40, Ideal.exp (s (ix2 p k))) := by
  show s (ix2 p q) - broadcastTo S10000x40
      (log (shapeCast S10000x1
        (multiReduction (F := Ideal) .add [1] S10000 (exp s) 0x00000000#32 reduces_S10000x40_S10000 (.inl rfl) rfl)
        shapeCasts_S10000_S10000x1)) broadcasts_S10000x1_S10000x40 (ix2 p q) = _
  rw [broadcastTo_a1_ab_apply]
  show s (ix2 p q) - Ideal.log (shapeCast S10000x1
        (multiReduction (F := Ideal) .add [1] S10000 (exp s) 0x00000000#32 reduces_S10000x40_S10000 (.inl rfl) rfl)
        shapeCasts_S10000_S10000x1 (ix2 p (0 : Fin 1))) = _
  rw [shapeCast_a_a1_apply, rowSum_apply]
  rfl

/-! ## The body -/

/-- The body's value is the result of the two row steps on the pre-activation. -/
theorem k1_pay1_unfold (b0 b1 b2 : Vec Ideal S10000x16 .f32) (w0 w1 w2 : Vec Ideal S16x40 .f32) (bb : Vec Ideal S1x40 .f32) :
    k1_pay1 (F := Ideal) b0 b1 b2 w0 w1 w2 bb = outV (shiftV (preV b0 b1 b2 w0 w1 w2 bb)) := by
  unfold k1_pay1
  simp only [shapeCast_self]
  rfl

/-- The body's stored value is the second layer of its blocks. -/
theorem k1_pay1_eq (b0 b1 b2 : Vec Ideal S10000x16 .f32) (w0 w1 w2 : Vec Ideal S16x40 .f32) (bb : Vec Ideal S1x40 .f32) :
    k1_pay1 (F := Ideal) b0 b1 b2 w0 w1 w2 bb
      = Cert.Cheb.layer2 (Ideal.ofBits .f32 0xFF800000#32) b0 b1 b2 w0 w1 w2 (fun q => bb (ix2 (0 : Fin 1) q)) := by
  funext j
  obtain ⟨p, q, rfl⟩ : ∃ (p : Fin 10000) (q : Fin 40), j = ix2 p q := ⟨j 0, j 1, eq_ix2 j⟩
  rw [k1_pay1_unfold, outV_apply, shiftV_apply]
  simp only [shiftV_apply, preV_apply]
  rfl

end Cert.KernelIdeal.Pay1

end
-- ==== Proof.Blocks1.lean ====
/-
  From blocks to the whole array, for the second launch.

  The launch walks ten grid points. At point `t` the three feature arrays ([100000, 16]) are read through the block of
  rows 10000·t … 10000·t + 9999, the three weight matrices ([16, 40]) and the bias row ([1, 40]) whole, and the body's
  result, the second layer of those blocks, is written back to the same rows of the [100000, 40] output. An entry of
  the second layer is the logarithmic softmax of its own row of the pre-activation, and a row of the pre-activation
  depends on the same row of the feature arrays only; so the block written at `t` is the block of rows of the second
  layer of the WHOLE arrays. The ten blocks cover every row (row `r` lies in block `r / 10000`), so the output array
  ends holding the second layer of the arrays as the launch finds them.
-/
import proofs.«178568_j36498632082159_1_alg».proof.Proof.Gen.KernelIdeal.Frame
import proofs.«178568_j36498632082159_1_alg».proof.Proof.Payload1
import proofs.«178568_j36498632082159_1_alg».proof.Proof.Spec
import Idealize.ShloMosaic.Lib.Pipeline.Value
import Idealize.ShloMosaic.Lib.ValueIdx

set_option maxRecDepth 16384

noncomputable section

namespace Cert.KernelIdeal.Blk1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The second layer of the arrays the launch finds. -/
abbrev G (c : Dev nD) : S100000x40.Idx → EReal :=
  Cert.Cheb.layer2 (Ideal.ofBits .f32 0xFF800000#32) (V c main_v66) (V c main_v79) (V c main_v95)
    (V c main_v97) (V c main_v99) (V c main_v101) (fun q => V c main_v102 (ix2 (0 : Fin 1) q))

/-- The printed index maps over the grid: the three feature windows move with the output window along the rows and
    stay at column block 0; the weights and the bias stay at block (0, 0); the output's row block is at most 9. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9 ∧ win1_7.index t (1 : Fin 2) = 0 :=
  (by decide +kernel : ∀ t : Fin grid1.N, _)

/-- Every row block is some point's. -/
theorem idx_onto : ∀ q0 : Fin 10, ∃ t : Fin cfg1.N, win1_7.index t = ![q0.val, 0] :=
  (by decide +kernel : ∀ q0 : Fin 10, ∃ t : Fin grid1.N, win1_7.index t = ![q0.val, 0])

/-- The second layer at an index of a block against the second layer at an index of the whole arrays: equal when the
    block's row is the arrays' row, entry by entry, the weights and bias are the same, and the columns agree. The
    softmax of a row reads the whole row of the pre-activation, which the two sides share column by column. -/
theorem layer2_block {A : ℕ} (e : EReal) (T0 T1 T2 : (⟨2, ![A, 16]⟩ : Shape).Idx → EReal) (B0 B1 B2 : S10000x16.Idx → EReal)
    (w0 w1 w2 W0 W1 W2 : S16x40.Idx → EReal) (b b' : Fin 40 → EReal) (y : S10000x40.Idx) (i : (⟨2, ![A, 40]⟩ : Shape).Idx)
    (h0 : ∀ k, B0 (ix2 (y 0) k) = T0 (ix2 (i 0) k)) (h1 : ∀ k, B1 (ix2 (y 0) k) = T1 (ix2 (i 0) k))
    (h2 : ∀ k, B2 (ix2 (y 0) k) = T2 (ix2 (i 0) k)) (hw0 : w0 = W0) (hw1 : w1 = W1) (hw2 : w2 = W2) (hb : b = b')
    (hq : y 1 = i 1) :
    Cert.Cheb.layer2 e B0 B1 B2 w0 w1 w2 b y = Cert.Cheb.layer2 e T0 T1 T2 W0 W1 W2 b' i := by
  subst hw0 hw1 hw2 hb
  obtain ⟨p, q, rfl⟩ : ∃ (p : Fin 10000) (q : Fin 40), y = ix2 p q := ⟨y 0, y 1, eq_ix2 y⟩
  obtain ⟨n, q', rfl⟩ : ∃ (n : Fin A) (q' : Fin 40), i = ix2 n q' := ⟨i 0, i 1, eq_ix2 i⟩
  have hq' : q = q' := hq
  subst hq'
  show Cert.Cheb.logSoftmaxRow e (fun c => Cert.Cheb.pre B0 B1 B2 w0 w1 w2 b p c) q
    = Cert.Cheb.logSoftmaxRow e (fun c => Cert.Cheb.pre T0 T1 T2 w0 w1 w2 b n c) q
  rw [show (fun c => Cert.Cheb.pre B0 B1 B2 w0 w1 w2 b p c) = fun c => Cert.Cheb.pre T0 T1 T2 w0 w1 w2 b n c from
    funext (Cert.Cheb.pre_congr_rows B0 B1 B2 T0 T1 T2 w0 w1 w2 b p n h0 h1 h2)]

/-- What point `t` writes back is block `t` of the second layer of the arrays as the launch finds them. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S10000x16) hz, View.ld_unit_zero (S := S16x40) hz, View.ld_unit_zero (S := S1x40) hz]
  rw [Pay1.k1_pay1_eq]
  obtain ⟨e00, e01, e10, e11, e20, e21, e30, e31, e40, e41, e50, e51, e60, e61, e7, e71⟩ := idx_facts t
  funext y
  show Cert.Cheb.layer2 (Ideal.ofBits .f32 0xFF800000#32) (iblk1 V c 0 t) (iblk1 V c 1 t) (iblk1 V c 2 t) (iblk1 V c 3 t)
      (iblk1 V c 4 t) (iblk1 V c 5 t) (fun q => iblk1 V c 6 t (ix2 (0 : Fin 1) q)) y
    = G V c (((cfg1.win 7).blk t).view.emb y)
  refine layer2_block (A := 100000) (Ideal.ofBits .f32 0xFF800000#32) (V c main_v66) (V c main_v79) (V c main_v95)
    (iblk1 V c 0 t) (iblk1 V c 1 t) (iblk1 V c 2 t)
    (iblk1 V c 3 t) (iblk1 V c 4 t) (iblk1 V c 5 t) (V c main_v97) (V c main_v99) (V c main_v101)
    (fun q => iblk1 V c 6 t (ix2 (0 : Fin 1) q)) (fun q => V c main_v102 (ix2 (0 : Fin 1) q)) y (((cfg1.win 7).blk t).view.emb y)
    ?_ ?_ ?_ ?_ ?_ ?_ ?_ ?_
  · intro k
    show V c main_v66 (((cfg1.win 0).blk t).view.emb (ix2 (y 0) k)) = V c main_v66 (ix2 ((((cfg1.win 7).blk t).view.emb y) 0) k)
    refine congrArg _ (funext fun a => Fin.ext ?_)
    match a with
    | ⟨0, _⟩ => show win1_0.index t (0 : Fin 2) * 10000 + 1 * (y 0).val = win1_7.index t (0 : Fin 2) * 10000 + 1 * (y 0).val; omega
    | ⟨1, _⟩ => show win1_0.index t (1 : Fin 2) * 16 + 1 * k.val = k.val; omega
  · intro k
    show V c main_v79 (((cfg1.win 1).blk t).view.emb (ix2 (y 0) k)) = V c main_v79 (ix2 ((((cfg1.win 7).blk t).view.emb y) 0) k)
    refine congrArg _ (funext fun a => Fin.ext ?_)
    match a with
    | ⟨0, _⟩ => show win1_1.index t (0 : Fin 2) * 10000 + 1 * (y 0).val = win1_7.index t (0 : Fin 2) * 10000 + 1 * (y 0).val; omega
    | ⟨1, _⟩ => show win1_1.index t (1 : Fin 2) * 16 + 1 * k.val = k.val; omega
  · intro k
    show V c main_v95 (((cfg1.win 2).blk t).view.emb (ix2 (y 0) k)) = V c main_v95 (ix2 ((((cfg1.win 7).blk t).view.emb y) 0) k)
    refine congrArg _ (funext fun a => Fin.ext ?_)
    match a with
    | ⟨0, _⟩ => show win1_2.index t (0 : Fin 2) * 10000 + 1 * (y 0).val = win1_7.index t (0 : Fin 2) * 10000 + 1 * (y 0).val; omega
    | ⟨1, _⟩ => show win1_2.index t (1 : Fin 2) * 16 + 1 * k.val = k.val; omega
  · funext z
    show V c main_v97 (((cfg1.win 3).blk t).view.emb z) = V c main_v97 z
    refine congrArg _ (funext fun a => Fin.ext ?_)
    match a with
    | ⟨0, _⟩ => show win1_3.index t (0 : Fin 2) * 16 + 1 * (z 0).val = (z 0).val; omega
    | ⟨1, _⟩ => show win1_3.index t (1 : Fin 2) * 40 + 1 * (z 1).val = (z 1).val; omega
  · funext z
    show V c main_v99 (((cfg1.win 4).blk t).view.emb z) = V c main_v99 z
    refine congrArg _ (funext fun a => Fin.ext ?_)
    match a with
    | ⟨0, _⟩ => show win1_4.index t (0 : Fin 2) * 16 + 1 * (z 0).val = (z 0).val; omega
    | ⟨1, _⟩ => show win1_4.index t (1 : Fin 2) * 40 + 1 * (z 1).val = (z 1).val; omega
  · funext z
    show V c main_v101 (((cfg1.win 5).blk t).view.emb z) = V c main_v101 z
    refine congrArg _ (funext fun a => Fin.ext ?_)
    match a with
    | ⟨0, _⟩ => show win1_5.index t (0 : Fin 2) * 16 + 1 * (z 0).val = (z 0).val; omega
    | ⟨1, _⟩ => show win1_5.index t (1 : Fin 2) * 40 + 1 * (z 1).val = (z 1).val; omega
  · funext q
    show V c main_v102 (((cfg1.win 6).blk t).view.emb (ix2 (0 : Fin 1) q)) = V c main_v102 (ix2 (0 : Fin 1) q)
    refine congrArg _ (funext fun a => Fin.ext ?_)
    match a with
    | ⟨0, _⟩ => show win1_6.index t (0 : Fin 2) * 1 + 1 * 0 = 0; omega
    | ⟨1, _⟩ => show win1_6.index t (1 : Fin 2) * 40 + 1 * q.val = q.val; omega
  · refine Fin.ext ?_
    show (y 1).val = win1_7.index t (1 : Fin 2) * 40 + 1 * (y 1).val
    omega

/-- An index of the output array is in point `t`'s block iff each coordinate is in the block's range on its axis. -/
theorem mem_blk (t : Fin cfg1.N) (i : S100000x40.Idx) :
    i ∈ ((cfg1.win 7).blk t).view.set ↔ ∀ a : Fin 2, win1_7.index t a * S10000x40.size a ≤ (i a).val
      ∧ (i a).val < win1_7.index t a * S10000x40.size a + S10000x40.size a := by
  show i ∈ ((View.whole main_v103).slice (win1_7.rect t)).set ↔ _
  rw [View.set_slice_whole, Rect.mem_set_unit]
  exact Iff.rfl

/-- Every index of the output array lies in some point's block: row `r` in the block of point `r / 10000`. -/
theorem cover (i : S100000x40.Idx) :
    ∃ t : Fin cfg1.N, (cfg1.win 7).flush t = true ∧ i ∈ ((cfg1.win 7).blk t).view.set := by
  have hi0 : (i 0).val < 100000 := (i 0).isLt
  have hi1 : (i 1).val < 40 := (i 1).isLt
  obtain ⟨t, ht⟩ := idx_onto ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 40 ≤ (i 1).val ∧ (i 1).val < win1_7.index t (1 : Fin 2) * 40 + 40; omega

/-- The output array after the launch: the second layer of the arrays the launch finds. -/
theorem arr1_eq (c : Dev nD) :
    (dat1 (F := Ideal) V c).arrAt 7 cfg1.N
      = Cert.Cheb.layer2 (Ideal.ofBits .f32 0xFF800000#32) (V c main_v66) (V c main_v79) (V c main_v95)
          (V c main_v97) (V c main_v99) (V c main_v101) (fun q => V c main_v102 (ix2 (0 : Fin 1) q)) :=
  (dat1 V c).arrAt_eq_of_cover 7 (G V c) (fun t _ => flushed_eq V c t) (cover)

end Cert.KernelIdeal.Blk1

end
-- ==== Proof.KernelRun.lean ====
/-
  The idealized kernel's run, with its result named.

  @main is six segments: three stretches of host operations, the first launch, a fourth stretch, the second launch.
  The buffer contents at each boundary are a fold from the launch memory; at the last boundary (`W6`) every array of the
  second launch holds what its blocks' write-backs leave and every other buffer what the fourth stretch left. Every
  weakly fair execution terminates with each unscoped buffer at those last contents: so the result buffer holds the
  second launch's output array, and the six arguments, which nothing writes, hold what they were launched with.
-/
import proofs.«178568_j36498632082159_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v103) = W6 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v103 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-- The result buffer is the second launch's output array: what the write-backs of its ten blocks leave. -/
theorem result_arr (c : Dev nD) :
    W6 m ρ c (Proc.devRef .tc main_v103) = (dat1 (V5 m ρ) c).arrAt 7 cfg1.N :=
  W6_arr m ρ c 7

end Cert.KernelIdeal.RunV

end
-- ==== Proof.RefDense.lean ====
/-
  The reference's two dense stages, read index by index.

  Each stage of the reference is a plain matrix product of a feature array with a weight matrix; three of them are
  added, a bias row is added along the rows, and the sum is cut off below at zero (first layer) or passed through a
  logarithmic softmax along each row (second layer). Read at an entry (n, q) this is exactly the pre-activation
  `Cert.Cheb.pre` of the layer followed by `max · 0`, respectively by `Cert.Cheb.logSoftmaxRow`.

  The arrays produced by the scatter and gather stages stay opaque: only their names occur here.
-/
import proofs.«178568_j36498632082159_1_alg».proof.Proof.RefRead
import proofs.«178568_j36498632082159_1_alg».proof.Proof.Spec
import proofs.«178568_j36498632082159_1_alg».proof.Proof.LibRowOps
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.ReferenceIdeal.Dense

open Cert.ReferenceIdeal Cert.ReferenceIdeal.ReadP Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S3x64x16, .f32⟩ : BufTy).Contents (Elt Ideal)) (x3 : (⟨S16, .f32⟩ : BufTy).Contents (Elt Ideal))
  (x4 : (⟨S3x16x40, .f32⟩ : BufTy).Contents (Elt Ideal)) (x5 : (⟨S40, .f32⟩ : BufTy).Contents (Elt Ideal))

/-! ## The first layer -/

/-- The bias row of the first layer, broadcast to every row, read at (n, q): entry q of the bias. -/
theorem v71_apply (n : Fin 100000) (q : Fin 16) : val_main_v71 (F := Ideal) x3 (ix2 n q) = x3 (ix1 q) := by
  rw [val_main_v71_apply, val_main_v70_apply]
  exact congrArg x3 (funext fun a => by match a with | ⟨0, _⟩ => rfl)

/-- The pre-activation of the first layer at (n, q). -/
theorem v72_apply (n : Fin 100000) (q : Fin 16) :
    val_main_v72 (F := Ideal) x0 x1 x2 x3 (ix2 n q)
      = Cert.Cheb.pre x0 (val_main_v45 (F := Ideal) x0 x1) (val_main_v65 (F := Ideal) x0 x1)
          (val_main_v31 (F := Ideal) x2) (val_main_v47 (F := Ideal) x2) (val_main_v67 (F := Ideal) x2)
          (fun q => x3 (ix1 q)) n q := by
  have e32 : val_main_v32 (F := Ideal) x0 x2 (ix2 n q)
      = ∑ k : Fin 64, x0 (ix2 n k) * val_main_v31 (F := Ideal) x2 (ix2 k q) := by
    unfold val_main_v32
    exact RowOps.dotGeneral_plain_apply _ ⟨_, rfl⟩ none .single x0 _ n q
  have e48 : val_main_v48 (F := Ideal) x0 x1 x2 (ix2 n q)
      = ∑ k : Fin 64, val_main_v45 (F := Ideal) x0 x1 (ix2 n k) * val_main_v47 (F := Ideal) x2 (ix2 k q) := by
    unfold val_main_v48
    exact RowOps.dotGeneral_plain_apply _ ⟨_, rfl⟩ none .single _ _ n q
  have e68 : val_main_v68 (F := Ideal) x0 x1 x2 (ix2 n q)
      = ∑ k : Fin 64, val_main_v65 (F := Ideal) x0 x1 (ix2 n k) * val_main_v67 (F := Ideal) x2 (ix2 k q) := by
    unfold val_main_v68
    exact RowOps.dotGeneral_plain_apply _ ⟨_, rfl⟩ none .single _ _ n q
  have e : val_main_v72 (F := Ideal) x0 x1 x2 x3 (ix2 n q)
      = ((val_main_v32 (F := Ideal) x0 x2 (ix2 n q) + val_main_v48 (F := Ideal) x0 x1 x2 (ix2 n q))
          + val_main_v68 (F := Ideal) x0 x1 x2 (ix2 n q)) + val_main_v71 (F := Ideal) x3 (ix2 n q) := rfl
  rw [e, e32, e48, e68, v71_apply]
  rfl

/-- The first layer of the reference is `Cert.Cheb.layer1` of its operand stages. -/
theorem v73_eq :
    val_main_v73 (F := Ideal) x0 x1 x2 x3
      = Cert.Cheb.layer1 x0 (val_main_v45 (F := Ideal) x0 x1) (val_main_v65 (F := Ideal) x0 x1)
          (val_main_v31 (F := Ideal) x2) (val_main_v47 (F := Ideal) x2) (val_main_v67 (F := Ideal) x2)
          (fun q => x3 (ix1 q)) := by
  funext i
  obtain ⟨n, q, rfl⟩ : ∃ (n : Fin 100000) (q : Fin 16), i = ix2 n q := ⟨i 0, i 1, eq_ix2 i⟩
  have e : val_main_v73 (F := Ideal) x0 x1 x2 x3 (ix2 n q)
      = max (val_main_v72 (F := Ideal) x0 x1 x2 x3 (ix2 n q)) (val_main_call1_v0 (F := Ideal) (ix2 n q)) := rfl
  have e0 : val_main_call1_v0 (F := Ideal) (ix2 n q) = 0 := by
    rw [val_main_call1_v0_apply, val_main_call1_cst_apply]
    exact Ideal.ofBits_zero_f32
  rw [e, e0, v72_apply]
  rfl

/-! ## The second layer -/

local notation "A2" => val_main_v146 (F := Ideal) x0 x1 x2 x3 x4 x5
local notation "NEGINF" => Ideal.ofBits FTy.f32 0xFF800000#32

/-- The bias row of the second layer, broadcast to every row, read at (n, q): entry q of the bias. -/
theorem v145_apply (n : Fin 100000) (q : Fin 40) : val_main_v145 (F := Ideal) x5 (ix2 n q) = x5 (ix1 q) := by
  rw [val_main_v145_apply, val_main_v144_apply]
  exact congrArg x5 (funext fun a => by match a with | ⟨0, _⟩ => rfl)

/-- The pre-activation of the second layer at (n, q). -/
theorem v146_apply (n : Fin 100000) (q : Fin 40) :
    val_main_v146 (F := Ideal) x0 x1 x2 x3 x4 x5 (ix2 n q)
      = Cert.Cheb.pre (val_main_v73 (F := Ideal) x0 x1 x2 x3) (val_main_v119 (F := Ideal) x0 x1 x2 x3)
          (val_main_v139 (F := Ideal) x0 x1 x2 x3)
          (val_main_v105 (F := Ideal) x4) (val_main_v121 (F := Ideal) x4) (val_main_v141 (F := Ideal) x4)
          (fun q => x5 (ix1 q)) n q := by
  have e106 : val_main_v106 (F := Ideal) x0 x1 x2 x3 x4 (ix2 n q)
      = ∑ k : Fin 16, val_main_v73 (F := Ideal) x0 x1 x2 x3 (ix2 n k) * val_main_v105 (F := Ideal) x4 (ix2 k q) := by
    unfold val_main_v106
    exact RowOps.dotGeneral_plain_apply _ ⟨_, rfl⟩ none .single _ _ n q
  have e122 : val_main_v122 (F := Ideal) x0 x1 x2 x3 x4 (ix2 n q)
      = ∑ k : Fin 16, val_main_v119 (F := Ideal) x0 x1 x2 x3 (ix2 n k) * val_main_v121 (F := Ideal) x4 (ix2 k q) := by
    unfold val_main_v122
    exact RowOps.dotGeneral_plain_apply _ ⟨_, rfl⟩ none .single _ _ n q
  have e142 : val_main_v142 (F := Ideal) x0 x1 x2 x3 x4 (ix2 n q)
      = ∑ k : Fin 16, val_main_v139 (F := Ideal) x0 x1 x2 x3 (ix2 n k) * val_main_v141 (F := Ideal) x4 (ix2 k q) := by
    unfold val_main_v142
    exact RowOps.dotGeneral_plain_apply _ ⟨_, rfl⟩ none .single _ _ n q
  have e : val_main_v146 (F := Ideal) x0 x1 x2 x3 x4 x5 (ix2 n q)
      = ((val_main_v106 (F := Ideal) x0 x1 x2 x3 x4 (ix2 n q) + val_main_v122 (F := Ideal) x0 x1 x2 x3 x4 (ix2 n q))
          + val_main_v142 (F := Ideal) x0 x1 x2 x3 x4 (ix2 n q)) + val_main_v145 (F := Ideal) x5 (ix2 n q) := rfl
  rw [e, e106, e122, e142, v145_apply]
  rfl

/-- A reduced index n with the column k put back is (n, k). -/
theorem lift_ix2 (h : S100000x40.Reduces [1] S100000) (n : Fin 100000) (k : Fin (S100000x40.size 1)) :
    h.lift (ix1 n) k = ix2 n (⟨k.val, k.isLt⟩ : Fin 40) := by
  funext c; apply Fin.ext
  fin_cases c <;> rfl

/-- The maximum-reduce along the rows, at row n: the maximum of the row folded from the starting word. -/
theorem call3_v0_apply (n : Fin 100000) :
    val_main_call3_v0 (F := Ideal) x0 x1 x2 x3 x4 x5 (ix1 n) = Cert.Cheb.rowMax NEGINF (fun c => A2 (ix2 n c)) := by
  unfold val_main_call3_v0
  generalize val_main_v146 (F := Ideal) x0 x1 x2 x3 x4 x5 = y
  have h : S100000x40.Reduces [1] S100000 := by decide
  refine (Host.reduce_eq_fold_single (α := Ideal .f32) (FloatOps.maximumf (F := Ideal) (φ := .f32))
    (y : S100000x40.Idx → Ideal .f32) _ _ h _ (ix1 n)).trans ?_
  have hf : (y ∘ h.lift (ix1 n)) = fun k : Fin 40 => y (ix2 n k) := funext fun k => congrArg y (lift_ix2 h n k)
  exact congrArg (fun f => Finset.fold max NEGINF f (Finset.univ : Finset (Fin 40))) hf

/-- The maximum with the starting word once more changes nothing. -/
theorem call3_v2_apply (n : Fin 100000) :
    val_main_call3_v2 (F := Ideal) x0 x1 x2 x3 x4 x5 (ix1 n) = Cert.Cheb.rowMax NEGINF (fun c => A2 (ix2 n c)) := by
  rw [val_main_call3_v2_apply, val_main_call3_v1_apply, val_main_call3_cst_0_apply, call3_v0_apply,
    Ideal.maximumf_def, Ideal.ofBits_def]
  generalize (fun c => A2 (ix2 n c)) = f
  exact Cert.Cheb.max_rowMax _ f

/-- The row maximum broadcast back along the row. -/
theorem call3_v4_apply (n : Fin 100000) (q : Fin 40) :
    val_main_call3_v4 (F := Ideal) x0 x1 x2 x3 x4 x5 (ix2 n q) = Cert.Cheb.rowMax NEGINF (fun c => A2 (ix2 n c)) := by
  rw [val_main_call3_v4_apply, val_main_call3_v3_apply]
  have ei : idx_main_call3_v3 (idx_main_call3_v4 (ix2 n q)) = ix1 n :=
    funext fun a => by match a with | ⟨0, _⟩ => rfl
  rw [ei, call3_v2_apply]

/-- The shifted row. -/
theorem call3_v5_apply (n : Fin 100000) (q : Fin 40) :
    val_main_call3_v5 (F := Ideal) x0 x1 x2 x3 x4 x5 (ix2 n q)
      = A2 (ix2 n q) - Cert.Cheb.rowMax NEGINF (fun c => A2 (ix2 n c)) := by
  rw [val_main_call3_v5_apply, call3_v4_apply, Ideal.subf_def]

/-- The sum of the exponentials of the shifted row. -/
theorem call3_v7_apply (n : Fin 100000) :
    val_main_call3_v7 (F := Ideal) x0 x1 x2 x3 x4 x5 (ix1 n)
      = ∑ c : Fin 40, Ideal.exp (A2 (ix2 n c) - Cert.Cheb.rowMax NEGINF (fun c => A2 (ix2 n c))) := by
  rw [val_main_call3_v7_apply, val_main_call3_cst_1_apply, Ideal.ofBits_def, Ideal.ofBits_zero_f32, zero_add]
  refine Finset.sum_congr rfl fun c _ => ?_
  have ei : idx_main_call3_v7 (ix1 n) c = ix2 n c :=
    funext fun a => by match a with | ⟨0, _⟩ => rfl | ⟨1, _⟩ => rfl
  rw [ei, val_main_call3_v6_apply, call3_v5_apply, Ideal.hostUnary_exp_def]

/-- The logarithm of that sum, broadcast back along the row. -/
theorem call3_v10_apply (n : Fin 100000) (q : Fin 40) :
    val_main_call3_v10 (F := Ideal) x0 x1 x2 x3 x4 x5 (ix2 n q)
      = Ideal.log (∑ c : Fin 40, Ideal.exp (A2 (ix2 n c) - Cert.Cheb.rowMax NEGINF (fun c => A2 (ix2 n c)))) := by
  rw [val_main_call3_v10_apply, val_main_call3_v9_apply, val_main_call3_v8_apply]
  have ei : idx_main_call3_v8 (idx_main_call3_v10 (ix2 n q)) = ix1 n :=
    funext fun a => by match a with | ⟨0, _⟩ => rfl
  rw [ei, call3_v7_apply, Ideal.hostUnary_log_def]

/-- The second layer of the reference is `Cert.Cheb.layer2` of its operand stages. -/
theorem v147_eq :
    val_main_v147 (F := Ideal) x0 x1 x2 x3 x4 x5
      = Cert.Cheb.layer2 (Ideal.ofBits .f32 0xFF800000#32) (val_main_v73 (F := Ideal) x0 x1 x2 x3)
          (val_main_v119 (F := Ideal) x0 x1 x2 x3) (val_main_v139 (F := Ideal) x0 x1 x2 x3)
          (val_main_v105 (F := Ideal) x4) (val_main_v121 (F := Ideal) x4) (val_main_v141 (F := Ideal) x4)
          (fun q => x5 (ix1 q)) := by
  funext i
  obtain ⟨n, q, rfl⟩ : ∃ (n : Fin 100000) (q : Fin 40), i = ix2 n q := ⟨i 0, i 1, eq_ix2 i⟩
  have el : val_main_v147 (F := Ideal) x0 x1 x2 x3 x4 x5 (ix2 n q)
      = Cert.Cheb.logSoftmaxRow NEGINF (fun c => A2 (ix2 n c)) q := by
    rw [val_main_v147_apply, call3_v5_apply, call3_v10_apply, Ideal.subf_def]
    generalize A2 = y
    rfl
  have ea : (fun c => A2 (ix2 n c))
      = fun c => Cert.Cheb.pre (val_main_v73 (F := Ideal) x0 x1 x2 x3) (val_main_v119 (F := Ideal) x0 x1 x2 x3)
          (val_main_v139 (F := Ideal) x0 x1 x2 x3)
          (val_main_v105 (F := Ideal) x4) (val_main_v121 (F := Ideal) x4) (val_main_v141 (F := Ideal) x4)
          (fun q => x5 (ix1 q)) n c := funext fun c => v146_apply x0 x1 x2 x3 x4 x5 n c
  rw [el, ea]
  generalize val_main_v73 (F := Ideal) x0 x1 x2 x3 = t0
  generalize val_main_v119 (F := Ideal) x0 x1 x2 x3 = t1
  generalize val_main_v139 (F := Ideal) x0 x1 x2 x3 = t2
  generalize val_main_v105 (F := Ideal) x4 = w0
  generalize val_main_v121 (F := Ideal) x4 = w1
  generalize val_main_v141 (F := Ideal) x4 = w2
  rfl

end Cert.ReferenceIdeal.Dense

end
-- ==== Proof.Bridge.lean ====
/-
  The idealized kernel's result is the reference's last stage of the same arguments.

  The first launch finds the node features, their two Chebyshev terms, the three weight matrices and the bias row as
  the host left them — the reference's stages — and leaves the first layer of them in its output array: the
  reference's first-layer stage. The host then forms the two Chebyshev terms of that array, and the second launch
  leaves the second layer — the logarithmic softmax of each row of the pre-activation — of those: the reference's
  last stage. So every weakly fair execution of the kernel ends with its result buffer at the reference's last stage
  of the launch arguments.
-/
import proofs.«178568_j36498632082159_1_alg».proof.Proof.Glue
import proofs.«178568_j36498632082159_1_alg».proof.Proof.Blocks0
import proofs.«178568_j36498632082159_1_alg».proof.Proof.Blocks1
import proofs.«178568_j36498632082159_1_alg».proof.Proof.KernelRun
import proofs.«178568_j36498632082159_1_alg».proof.Proof.RefDense

noncomputable section

namespace Cert.KernelIdeal.Bridge

open Cert.KernelIdeal Cert.KernelIdeal.Gen Cert.KernelIdeal.Glue Idealize.ShloMosaic Idealize.ShloMosaic.TcCoe Idealize.SL.Sem
open Idealize.ShloMosaic.ValueIdx
open Cert.ReferenceIdeal.ReadP

variable (m : (ℓ : Loc nD τ sig) → Buf (Elt Ideal) ℓ) (ρ : Dev nD → PrngReg)

/-- After the first launch its output array is the reference's first layer of the launch arguments. -/
theorem first_layer (c : Dev nD) :
    W4 m ρ c (Proc.devRef .tc main_v66) = val_main_v73 (F := Ideal) (a0 m c) (a1 m c) (a2 m c) (a3 m c) := by
  refine (W4_arr m ρ c 7).trans ?_
  rw [Blk0.arr0_eq (V3 m ρ) c, Cert.ReferenceIdeal.Dense.v73_eq]
  show Cert.Cheb.layer1 (W3 m ρ c (Proc.devRef .tc main_arg0)) (W3 m ρ c (Proc.devRef .tc main_v42))
      (W3 m ρ c (Proc.devRef .tc main_v58)) (W3 m ρ c (Proc.devRef .tc main_v60)) (W3 m ρ c (Proc.devRef .tc main_v62))
      (W3 m ρ c (Proc.devRef .tc main_v64)) (fun q => W3 m ρ c (Proc.devRef .tc main_v65) (ix2 (0 : Fin 1) q)) = _
  rw [w3_arg0, w3_v42, w3_v58, w3_v60, w3_v62, w3_v64, funext (w3_v65 m ρ c)]

/-- After the second launch the result buffer is the reference's last stage of the launch arguments. -/
theorem result_value (c : Dev nD) :
    W6 m ρ c (Proc.devRef .tc main_v103)
      = val_main_v147 (F := Ideal) (a0 m c) (a1 m c) (a2 m c) (a3 m c) (a4 m c) (a5 m c) := by
  have hH := first_layer m ρ c
  rw [RunV.result_arr, Blk1.arr1_eq (V5 m ρ) c, Cert.ReferenceIdeal.Dense.v147_eq]
  show Cert.Cheb.layer2 (Ideal.ofBits .f32 0xFF800000#32) (W5 m ρ c (Proc.devRef .tc main_v66)) (W5 m ρ c (Proc.devRef .tc main_v79))
      (W5 m ρ c (Proc.devRef .tc main_v95)) (W5 m ρ c (Proc.devRef .tc main_v97)) (W5 m ρ c (Proc.devRef .tc main_v99))
      (W5 m ρ c (Proc.devRef .tc main_v101)) (fun q => W5 m ρ c (Proc.devRef .tc main_v102) (ix2 (0 : Fin 1) q)) = _
  rw [w5_v66 m ρ c hH, w5_v79 m ρ c hH, w5_v95 m ρ c hH, w5_v97, w5_v99, w5_v101, funext (w5_v102 m ρ c)]

/-- The kernel's run with its result named: the reference's last stage of the launch arguments, the arguments
    unchanged. -/
theorem run_value : θ_run defs (onTc (τ := τ) (main (F := Ideal))) ⟨m, fun _ => 0, ρ⟩ (fun r => ∀ c : Dev nD,
      r.2.mem ((c.tc : Thread nD τ).loc main_v103)
        = val_main_v147 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (RunV.run_named m ρ)

end Cert.KernelIdeal.Bridge

end
-- ==== Proof.RefOps.lean ====
/-
  The reference's @main as five consecutive stretches of its operations.

  The reference is a straight line of 200 host operations. Read whole, its result is one term in which the edge
  weights and the first layer's output are written out once per use; read a stretch at a time, each stretch's
  few live results are named (the stage functions of the operation-by-operation reading) before the next stretch
  uses them. The five stretches: the edge weights; the first layer; the edge weights again; the second layer's
  pre-activation; the logarithmic softmax. The fold over a concatenation is the fold of the second list from the
  fold of the first.

  An operation of a called function reads and writes its buffers through a typed reference; at a literal reference
  whose declared type is the buffer's own, the transport in either direction is the identity.
-/
import proofs.«178568_j36498632082159_1_alg».proof.Proof.RefRun
import proofs.«178568_j36498632082159_1_alg».proof.Proof.RefRead

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Operations 1–41 of @main: the edge rows and columns, the degree, its inverse square root where positive, and the edge weights. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v21 (broadcastInDim S1600000 ![] bcast_S_S1600000 : (⟨S_, .i32⟩ : BufTy).Contents (Elt F) → (⟨S1600000, .i32⟩ : BufTy).Contents (Elt F)),
    binary main_v3 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v23 (broadcastInDim S1600000 ![] bcast_S_S1600000 : (⟨S_, .i32⟩ : BufTy).Contents (Elt F) → (⟨S1600000, .i32⟩ : BufTy).Contents (Elt F)),
    binary main_v3 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v13 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v20 main_v27 main_v28 (mulf : (⟨S1600000, .f32⟩ : BufTy).Contents (Elt F) → (⟨S1600000, .f32⟩ : BufTy).Contents (Elt F) → (⟨S1600000, .f32⟩ : BufTy).Contents (Elt F)),
    unary main_v28 main_v29 (Host.negf : (⟨S1600000, .f32⟩ : BufTy).Contents (Elt F) → (⟨S1600000, .f32⟩ : BufTy).Contents (Elt F)) ]

/-- Operations 42–94 of @main: the first layer: the two Chebyshev terms of the node features, the three products, the bias, the cut-off at zero. -/
abbrev opsB : List (HloOp τ sig (Elt F)) :=
  [ unary main_arg2 main_v30 ((extractStridedSlice S1x64x16 ![0, 0, 0] · slices_S3x64x16_S1x64x16_0_0_0) : (⟨S3x64x16, .f32⟩ : BufTy).Contents (Elt F) → (⟨S1x64x16, .f32⟩ : BufTy).Contents (Elt F)),
    reshape main_v30 main_v31 rfl shapeCasts_S1x64x16_S64x16,
    binary main_arg0 main_v31 main_v32 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_v29 main_v33 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v34 (broadcastInDim S1600000 ![] bcast_S_S1600000 : (⟨S_, .i32⟩ : BufTy).Contents (Elt F) → (⟨S1600000, .i32⟩ : BufTy).Contents (Elt F)),
    binary main_v1 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v36 (broadcastInDim S1600000 ![] bcast_S_S1600000 : (⟨S_, .i32⟩ : BufTy).Contents (Elt F) → (⟨S1600000, .i32⟩ : BufTy).Contents (Elt F)),
    binary main_v1 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_arg0 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v33 main_v41 (broadcastInDim S1600000x64 ![0, 1] bcast_S1600000x1_S1600000x64_0_1 : (⟨S1600000x1, .f32⟩ : BufTy).Contents (Elt F) → (⟨S1600000x64, .f32⟩ : BufTy).Contents (Elt F)),
    binary main_v41 main_v40 main_v42 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg2 main_v46 ((extractStridedSlice S1x64x16 ![1, 0, 0] · slices_S3x64x16_S1x64x16_1_0_0) : (⟨S3x64x16, .f32⟩ : BufTy).Contents (Elt F) → (⟨S1x64x16, .f32⟩ : BufTy).Contents (Elt F)),
    reshape main_v46 main_v47 rfl shapeCasts_S1x64x16_S64x16,
    binary main_v45 main_v47 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v32 main_v48 main_v49 (addf : (⟨S100000x16, .f32⟩ : BufTy).Contents (Elt F) → (⟨S100000x16, .f32⟩ : BufTy).Contents (Elt F) → (⟨S100000x16, .f32⟩ : BufTy).Contents (Elt F)),
    unary main_v29 main_v50 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v45 main_v56 main_v57 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v50 main_v58 (broadcastInDim S1600000x64 ![0, 1] bcast_S1600000x1_S1600000x64_0_1 : (⟨S1600000x1, .f32⟩ : BufTy).Contents (Elt F) → (⟨S1600000x64, .f32⟩ : BufTy).Contents (Elt F)),
    binary main_v58 main_v57 main_v59 (mulf : (⟨S1600000x64, .f32⟩ : BufTy).Contents (Elt F) → (⟨S1600000x64, .f32⟩ : BufTy).Contents (Elt F) → (⟨S1600000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v3 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v59 main_v62 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_13 (constant S_ .f32 0x40000000#32),
    unary main_cst_13 main_v63 (broadcastInDim S100000x64 ![] bcast_S_S100000x64 : (⟨S_, .f32⟩ : BufTy).Contents (Elt F) → (⟨S100000x64, .f32⟩ : BufTy).Contents (Elt F)),
    binary main_v63 main_v62 main_v64 (mulf : (⟨S100000x64, .f32⟩ : BufTy).Contents (Elt F) → (⟨S100000x64, .f32⟩ : BufTy).Contents (Elt F) → (⟨S100000x64, .f32⟩ : BufTy).Contents (Elt F)),
    binary main_v64 main_arg0 main_v65 (subf : (⟨S100000x64, .f32⟩ : BufTy).Contents (Elt F) → (⟨S100000x64, .f32⟩ : BufTy).Contents (Elt F) → (⟨S100000x64, .f32⟩ : BufTy).Contents (Elt F)),
    unary main_arg2 main_v66 ((extractStridedSlice S1x64x16 ![2, 0, 0] · slices_S3x64x16_S1x64x16_2_0_0) : (⟨S3x64x16, .f32⟩ : BufTy).Contents (Elt F) → (⟨S1x64x16, .f32⟩ : BufTy).Contents (Elt F)),
    reshape main_v66 main_v67 rfl shapeCasts_S1x64x16_S64x16,
    binary main_v65 main_v67 main_v68 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v49 main_v68 main_v69 (addf : (⟨S100000x16, .f32⟩ : BufTy).Contents (Elt F) → (⟨S100000x16, .f32⟩ : BufTy).Contents (Elt F) → (⟨S100000x16, .f32⟩ : BufTy).Contents (Elt F)),
    unary main_arg3 main_v70 (broadcastInDim S1x16 ![1] bcast_S16_S1x16_1 : (⟨S16, .f32⟩ : BufTy).Contents (Elt F) → (⟨S1x16, .f32⟩ : BufTy).Contents (Elt F)),
    unary main_v70 main_v71 (broadcastInDim S100000x16 ![0, 1] bcast_S1x16_S100000x16_0_1 : (⟨S1x16, .f32⟩ : BufTy).Contents (Elt F) → (⟨S100000x16, .f32⟩ : BufTy).Contents (Elt F)),
    binary main_v69 main_v71 main_v72 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v72) (TRef.of (T := ⟨S100000x16, .f32⟩) main_call1_v0) (TRef.of (T := ⟨S100000x16, .f32⟩) main_v73) maximumf ]

/-- Operations 95–135 of @main: the edge rows and columns and the edge weights, computed a second time. -/
abbrev opsC : List (HloOp τ sig (Elt F)) :=
  [ unary main_arg1 main_v74 ((extractStridedSlice S1x1600000 ![0, 0] · slices_S2x1600000_S1x1600000_0_0) : (⟨S2x1600000, .i32⟩ : BufTy).Contents (Elt F) → (⟨S1x1600000, .i32⟩ : BufTy).Contents (Elt F)),
    reshape main_v74 main_v75 rfl shapeCasts_S1x1600000_S1600000,
    unary main_arg1 main_v76 ((extractStridedSlice S1x1600000 ![1, 0] · slices_S2x1600000_S1x1600000_1_0) : (⟨S2x1600000, .i32⟩ : BufTy).Contents (Elt F) → (⟨S1x1600000, .i32⟩ : BufTy).Contents (Elt F)),
    reshape main_v76 main_v77 rfl shapeCasts_S1x1600000_S1600000,
    nullary main_cst_14 (constant S_ .f32 0x3F800000#32),
    unary main_cst_14 main_v78 (broadcastInDim S1600000 ![] bcast_S_S1600000 : (⟨S_, .f32⟩ : BufTy).Contents (Elt F) → (⟨S1600000, .f32⟩ : BufTy).Contents (Elt F)),
    nullary main_cst_15 (constant S_ .f32 0x00000000#32),
    unary main_cst_15 main_v79 (broadcastInDim S100000 ![] bcast_S_S100000 : (⟨S_, .f32⟩ : BufTy).Contents (Elt F) → (⟨S100000, .f32⟩ : BufTy).Contents (Elt F)),
    unary main_v75 main_v80 (broadcastInDim S1600000x1 ![0] bcast_S1600000_S1600000x1_0 : (⟨S1600000, .i32⟩ : BufTy).Contents (Elt F) → (⟨S1600000x1, .i32⟩ : BufTy).Contents (Elt F)),
    ternary main_v79 main_v80 main_v78 main_v81 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_16 (constant S_ .f32 0x00000000#32),
    unary main_cst_16 main_v82 (broadcastInDim S100000 ![] bcast_S_S100000 : (⟨S_, .f32⟩ : BufTy).Contents (Elt F) → (⟨S100000, .f32⟩ : BufTy).Contents (Elt F)),
    binary main_v81 main_v82 main_v83 (cmpf .ogt : (⟨S100000, .f32⟩ : BufTy).Contents (Elt F) → (⟨S100000, .f32⟩ : BufTy).Contents (Elt F) → (⟨S100000, .i1⟩ : BufTy).Contents (Elt F)),
    nullary main_cst_17 (constant S_ .f32 0x3F800000#32),
    unary main_cst_17 main_v84 (broadcastInDim S100000 ![] bcast_S_S100000 : (⟨S_, .f32⟩ : BufTy).Contents (Elt F) → (⟨S100000, .f32⟩ : BufTy).Contents (Elt F)),
    binary main_v81 main_v84 main_v85 (maximumf : (⟨S100000, .f32⟩ : BufTy).Contents (Elt F) → (⟨S100000, .f32⟩ : BufTy).Contents (Elt F) → (⟨S100000, .f32⟩ : BufTy).Contents (Elt F)),
    unary main_v85 main_v86 (Host.rsqrt : (⟨S100000, .f32⟩ : BufTy).Contents (Elt F) → (⟨S100000, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v83) (TRef.of (T := ⟨S100000, .f32⟩) main_v86) (TRef.of (T := ⟨S100000, .f32⟩) main_call2_v1) (TRef.of (T := ⟨S100000, .f32⟩) main_v87) select,
    nullary main_c_19 (constantI S_ 32 0#32),
    unary main_c_19 main_v88 (broadcastInDim S1600000 ![] bcast_S_S1600000 : (⟨S_, .i32⟩ : BufTy).Contents (Elt F) → (⟨S1600000, .i32⟩ : BufTy).Contents (Elt F)),
    binary main_v75 main_v88 main_v89 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v90 (broadcastInDim S1600000 ![] bcast_S_S1600000 : (⟨S_, .i32⟩ : BufTy).Contents (Elt F) → (⟨S1600000, .i32⟩ : BufTy).Contents (Elt F)),
    binary main_v75 main_v90 main_v91 (addi : (⟨S1600000, .i32⟩ : BufTy).Contents (Elt F) → (⟨S1600000, .i32⟩ : BufTy).Contents (Elt F) → (⟨S1600000, .i32⟩ : BufTy).Contents (Elt F)),
    ternary main_v89 main_v91 main_v75 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v92 main_v93 (broadcastInDim S1600000x1 ![0] bcast_S1600000_S1600000x1_0 : (⟨S1600000, .i32⟩ : BufTy).Contents (Elt F) → (⟨S1600000x1, .i32⟩ : BufTy).Contents (Elt F)),
    binary main_v87 main_v93 main_v94 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_21 (constantI S_ 32 0#32),
    unary main_c_21 main_v95 (broadcastInDim S1600000 ![] bcast_S_S1600000 : (⟨S_, .i32⟩ : BufTy).Contents (Elt F) → (⟨S1600000, .i32⟩ : BufTy).Contents (Elt F)),
    binary main_v77 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v97 (broadcastInDim S1600000 ![] bcast_S_S1600000 : (⟨S_, .i32⟩ : BufTy).Contents (Elt F) → (⟨S1600000, .i32⟩ : BufTy).Contents (Elt F)),
    binary main_v77 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v77 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v87 main_v100 main_v101 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v94 main_v101 main_v102 (mulf : (⟨S1600000, .f32⟩ : BufTy).Contents (Elt F) → (⟨S1600000, .f32⟩ : BufTy).Contents (Elt F) → (⟨S1600000, .f32⟩ : BufTy).Contents (Elt F)),
    unary main_v102 main_v103 (Host.negf : (⟨S1600000, .f32⟩ : BufTy).Contents (Elt F) → (⟨S1600000, .f32⟩ : BufTy).Contents (Elt F)) ]

/-- Operations 136–185 of @main: the second layer's pre-activation: the two Chebyshev terms of the first layer's output, the three products, the bias. -/
abbrev opsD : List (HloOp τ sig (Elt F)) :=
  [ unary main_arg4 main_v104 ((extractStridedSlice S1x16x40 ![0, 0, 0] · slices_S3x16x40_S1x16x40_0_0_0) : (⟨S3x16x40, .f32⟩ : BufTy).Contents (Elt F) → (⟨S1x16x40, .f32⟩ : BufTy).Contents (Elt F)),
    reshape main_v104 main_v105 rfl shapeCasts_S1x16x40_S16x40,
    binary main_v73 main_v105 main_v106 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_v103 main_v107 (broadcastInDim S1600000x1 ![0] bcast_S1600000_S1600000x1_0 : (⟨S1600000, .f32⟩ : BufTy).Contents (Elt F) → (⟨S1600000x1, .f32⟩ : BufTy).Contents (Elt F)),
    nullary main_c_23 (constantI S_ 32 0#32),
    unary main_c_23 main_v108 (broadcastInDim S1600000 ![] bcast_S_S1600000 : (⟨S_, .i32⟩ : BufTy).Contents (Elt F) → (⟨S1600000, .i32⟩ : BufTy).Contents (Elt F)),
    binary main_v75 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 100000#32),
    unary main_c_24 main_v110 (broadcastInDim S1600000 ![] bcast_S_S1600000 : (⟨S_, .i32⟩ : BufTy).Contents (Elt F) → (⟨S1600000, .i32⟩ : BufTy).Contents (Elt F)),
    binary main_v75 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v75 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v73 main_v113 main_v114 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v107 main_v115 (broadcastInDim S1600000x16 ![0, 1] bcast_S1600000x1_S1600000x16_0_1 : (⟨S1600000x1, .f32⟩ : BufTy).Contents (Elt F) → (⟨S1600000x16, .f32⟩ : BufTy).Contents (Elt F)),
    binary main_v115 main_v114 main_v116 (mulf : (⟨S1600000x16, .f32⟩ : BufTy).Contents (Elt F) → (⟨S1600000x16, .f32⟩ : BufTy).Contents (Elt F) → (⟨S1600000x16, .f32⟩ : BufTy).Contents (Elt F)),
    nullary main_cst_25 (constant S_ .f32 0x00000000#32),
    unary main_cst_25 main_v117 (broadcastInDim S100000x16 ![] bcast_S_S100000x16 : (⟨S_, .f32⟩ : BufTy).Contents (Elt F) → (⟨S100000x16, .f32⟩ : BufTy).Contents (Elt F)),
    unary main_v77 main_v118 (broadcastInDim S1600000x1 ![0] bcast_S1600000_S1600000x1_0 : (⟨S1600000, .i32⟩ : BufTy).Contents (Elt F) → (⟨S1600000x1, .i32⟩ : BufTy).Contents (Elt F)),
    ternary main_v117 main_v118 main_v116 main_v119 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    unary main_arg4 main_v120 ((extractStridedSlice S1x16x40 ![1, 0, 0] · slices_S3x16x40_S1x16x40_1_0_0) : (⟨S3x16x40, .f32⟩ : BufTy).Contents (Elt F) → (⟨S1x16x40, .f32⟩ : BufTy).Contents (Elt F)),
    reshape main_v120 main_v121 rfl shapeCasts_S1x16x40_S16x40,
    binary main_v119 main_v121 main_v122 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v106 main_v122 main_v123 (addf : (⟨S100000x40, .f32⟩ : BufTy).Contents (Elt F) → (⟨S100000x40, .f32⟩ : BufTy).Contents (Elt F) → (⟨S100000x40, .f32⟩ : BufTy).Contents (Elt F)),
    unary main_v103 main_v124 (broadcastInDim S1600000x1 ![0] bcast_S1600000_S1600000x1_0 : (⟨S1600000, .f32⟩ : BufTy).Contents (Elt F) → (⟨S1600000x1, .f32⟩ : BufTy).Contents (Elt F)),
    nullary main_c_26 (constantI S_ 32 0#32),
    unary main_c_26 main_v125 (broadcastInDim S1600000 ![] bcast_S_S1600000 : (⟨S_, .i32⟩ : BufTy).Contents (Elt F) → (⟨S1600000, .i32⟩ : BufTy).Contents (Elt F)),
    binary main_v75 main_v125 main_v126 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v127 (broadcastInDim S1600000 ![] bcast_S_S1600000 : (⟨S_, .i32⟩ : BufTy).Contents (Elt F) → (⟨S1600000, .i32⟩ : BufTy).Contents (Elt F)),
    binary main_v75 main_v127 main_v128 (addi : (⟨S1600000, .i32⟩ : BufTy).Contents (Elt F) → (⟨S1600000, .i32⟩ : BufTy).Contents (Elt F) → (⟨S1600000, .i32⟩ : BufTy).Contents (Elt F)),
    ternary main_v126 main_v128 main_v75 main_v129 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v129 main_v130 (broadcastInDim S1600000x1 ![0] bcast_S1600000_S1600000x1_0 : (⟨S1600000, .i32⟩ : BufTy).Contents (Elt F) → (⟨S1600000x1, .i32⟩ : BufTy).Contents (Elt F)),
    binary main_v119 main_v130 main_v131 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v124 main_v132 (broadcastInDim S1600000x16 ![0, 1] bcast_S1600000x1_S1600000x16_0_1 : (⟨S1600000x1, .f32⟩ : BufTy).Contents (Elt F) → (⟨S1600000x16, .f32⟩ : BufTy).Contents (Elt F)),
    binary main_v132 main_v131 main_v133 (mulf : (⟨S1600000x16, .f32⟩ : BufTy).Contents (Elt F) → (⟨S1600000x16, .f32⟩ : BufTy).Contents (Elt F) → (⟨S1600000x16, .f32⟩ : BufTy).Contents (Elt F)),
    nullary main_cst_28 (constant S_ .f32 0x00000000#32),
    unary main_cst_28 main_v134 (broadcastInDim S100000x16 ![] bcast_S_S100000x16 : (⟨S_, .f32⟩ : BufTy).Contents (Elt F) → (⟨S100000x16, .f32⟩ : BufTy).Contents (Elt F)),
    unary main_v77 main_v135 (broadcastInDim S1600000x1 ![0] bcast_S1600000_S1600000x1_0 : (⟨S1600000, .i32⟩ : BufTy).Contents (Elt F) → (⟨S1600000x1, .i32⟩ : BufTy).Contents (Elt F)),
    ternary main_v134 main_v135 main_v133 main_v136 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    nullary main_cst_29 (constant S_ .f32 0x40000000#32),
    unary main_cst_29 main_v137 (broadcastInDim S100000x16 ![] bcast_S_S100000x16 : (⟨S_, .f32⟩ : BufTy).Contents (Elt F) → (⟨S100000x16, .f32⟩ : BufTy).Contents (Elt F)),
    binary main_v137 main_v136 main_v138 (mulf : (⟨S100000x16, .f32⟩ : BufTy).Contents (Elt F) → (⟨S100000x16, .f32⟩ : BufTy).Contents (Elt F) → (⟨S100000x16, .f32⟩ : BufTy).Contents (Elt F)),
    binary main_v138 main_v73 main_v139 (subf : (⟨S100000x16, .f32⟩ : BufTy).Contents (Elt F) → (⟨S100000x16, .f32⟩ : BufTy).Contents (Elt F) → (⟨S100000x16, .f32⟩ : BufTy).Contents (Elt F)),
    unary main_arg4 main_v140 ((extractStridedSlice S1x16x40 ![2, 0, 0] · slices_S3x16x40_S1x16x40_2_0_0) : (⟨S3x16x40, .f32⟩ : BufTy).Contents (Elt F) → (⟨S1x16x40, .f32⟩ : BufTy).Contents (Elt F)),
    reshape main_v140 main_v141 rfl shapeCasts_S1x16x40_S16x40,
    binary main_v139 main_v141 main_v142 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v123 main_v142 main_v143 (addf : (⟨S100000x40, .f32⟩ : BufTy).Contents (Elt F) → (⟨S100000x40, .f32⟩ : BufTy).Contents (Elt F) → (⟨S100000x40, .f32⟩ : BufTy).Contents (Elt F)),
    unary main_arg5 main_v144 (broadcastInDim S1x40 ![1] bcast_S40_S1x40_1 : (⟨S40, .f32⟩ : BufTy).Contents (Elt F) → (⟨S1x40, .f32⟩ : BufTy).Contents (Elt F)),
    unary main_v144 main_v145 (broadcastInDim S100000x40 ![0, 1] bcast_S1x40_S100000x40_0_1 : (⟨S1x40, .f32⟩ : BufTy).Contents (Elt F) → (⟨S100000x40, .f32⟩ : BufTy).Contents (Elt F)),
    binary main_v143 main_v145 main_v146 (addf : (⟨S100000x40, .f32⟩ : BufTy).Contents (Elt F) → (⟨S100000x40, .f32⟩ : BufTy).Contents (Elt F) → (⟨S100000x40, .f32⟩ : BufTy).Contents (Elt F)) ]

/-- Operations 186–200 of @main: the logarithmic softmax of each row. -/
abbrev opsE : List (HloOp τ sig (Elt F)) :=
  [ TRef.nullary (TRef.of (T := ⟨S_, .f32⟩) main_call3_cst) (constant S_ .f32 0xFF800000#32),
    TRef.binary (TRef.of (T := ⟨S100000x40, .f32⟩) main_v146) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v146) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v147) subf ]

set_option maxRecDepth 8192 in
/-- The operation list is the five stretches in order. -/
theorem ops_split : (ValueP.ops (F := F)) = opsA ++ (opsB ++ (opsC ++ (opsD ++ opsE))) := rfl

/-- The contents after two lists run one after the other: the second list's fold from the first list's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents read at a literal reference's own type are the contents: the transport is along a reflexive equation. -/
theorem ofBuf_self (r : Ref sig .tc) (h : r.ty = r.ty) (hd : r.space ≠ .host) (hu : r.isScoped = false)
    (v : r.ty.Contents (Elt F)) : (TRef.of (T := r.ty) r h hd hu).ofBuf v = v := rfl
theorem toBuf_self (r : Ref sig .tc) (h : r.ty = r.ty) (hd : r.space ≠ .host) (hu : r.isScoped = false)
    (v : r.ty.Contents (Elt F)) : (TRef.of (T := r.ty) r h hd hu).toBuf v = v := rfl

end Cert.ReferenceIdeal.Chunks

end
-- ==== Proof.RefChunksABC.lean ====
/-
  The reference's first three stretches, read back.

  Each stretch is a straight line of host operations; the contents of a buffer after the line are the fold of the
  operations' results from the contents before it. Unrolled, the fold at a buffer the stretch writes is the tree of
  operations above that buffer with the stretch's live-in buffers at its leaves, which is the stage function of the
  operation-by-operation reading of the reference: the edge rows and columns and the edge weights as functions of the
  edge list (stretches one and three, the same computation twice), the first layer's output as a function of the node
  features, the edge list, the weights and the bias (stretch two, whose leaves are the first stretch's results). A
  buffer the stretch does not write keeps its contents.
-/
import proofs.«178568_j36498632082159_1_alg».proof.Proof.RefOps
import Idealize.ShloMosaic.Lib.StableHlo.Run

noncomputable section

namespace Cert.ReferenceIdeal.Chunks

open Cert.ReferenceIdeal Cert.ReferenceIdeal.Gen Cert.ReferenceIdeal.ReadP Idealize.ShloMosaic Idealize.ShloMosaic.TcCoe Idealize.SL.Sem Idealize.ShloMosaic.StableHlo

variable (V : Valuation τ sig (Elt Ideal))

/-! ## The first stretch: the edge weights -/

set_option maxHeartbeats 2000000 in
/-- The edge weights after the first stretch: for each edge, minus the product of its two endpoints' factors, a node's
    factor being the inverse square root of its degree (the number of edges whose first row names it) where that is
    positive and zero elsewhere. -/
theorem A_v29 : after (opsA (F := Ideal)) V (Proc.devRef .tc main_v29)
    = val_main_v29 (F := Ideal) (V (Proc.devRef .tc main_arg1)) := by
  after_results_simp
  repeat rw [toBuf_self]
  repeat rw [ofBuf_self]
  rfl

set_option maxHeartbeats 2000000 in
/-- The edges' first row, as a vector of 1600000 node indices. -/
theorem A_v1 : after (opsA (F := Ideal)) V (Proc.devRef .tc main_v1)
    = val_main_v1 (F := Ideal) (V (Proc.devRef .tc main_arg1)) := by
  after_results_simp
  repeat rw [toBuf_self]
  repeat rw [ofBuf_self]
  rfl

set_option maxHeartbeats 2000000 in
/-- The edges' second row, as a vector of 1600000 node indices. -/
theorem A_v3 : after (opsA (F := Ideal)) V (Proc.devRef .tc main_v3)
    = val_main_v3 (F := Ideal) (V (Proc.devRef .tc main_arg1)) := by
  after_results_simp
  repeat rw [toBuf_self]
  repeat rw [ofBuf_self]
  rfl

/-! The first stretch writes none of the reference's arguments. -/

theorem A_arg0 : after (opsA (F := Ideal)) V (Proc.devRef .tc main_arg0) = V (Proc.devRef .tc main_arg0) := by
  after_results_simp
  try rfl

theorem A_arg1 : after (opsA (F := Ideal)) V (Proc.devRef .tc main_arg1) = V (Proc.devRef .tc main_arg1) := by
  after_results_simp
  try rfl

theorem A_arg2 : after (opsA (F := Ideal)) V (Proc.devRef .tc main_arg2) = V (Proc.devRef .tc main_arg2) := by
  after_results_simp
  try rfl

theorem A_arg3 : after (opsA (F := Ideal)) V (Proc.devRef .tc main_arg3) = V (Proc.devRef .tc main_arg3) := by
  after_results_simp
  try rfl

theorem A_arg4 : after (opsA (F := Ideal)) V (Proc.devRef .tc main_arg4) = V (Proc.devRef .tc main_arg4) := by
  after_results_simp
  try rfl

theorem A_arg5 : after (opsA (F := Ideal)) V (Proc.devRef .tc main_arg5) = V (Proc.devRef .tc main_arg5) := by
  after_results_simp
  try rfl

/-! ## The second stretch: the first layer -/

set_option maxHeartbeats 2000000 in
/-- The first layer's output after the second stretch, when the stretch starts from the first stretch's edge rows,
    edge columns and edge weights: the three Chebyshev terms of the node features against the three weight matrices,
    plus the bias, cut off below at zero. -/
theorem B_v73 (h1 : V (Proc.devRef .tc main_v1) = val_main_v1 (F := Ideal) (V (Proc.devRef .tc main_arg1)))
    (h3 : V (Proc.devRef .tc main_v3) = val_main_v3 (F := Ideal) (V (Proc.devRef .tc main_arg1)))
    (h29 : V (Proc.devRef .tc main_v29) = val_main_v29 (F := Ideal) (V (Proc.devRef .tc main_arg1))) :
    after (opsB (F := Ideal)) V (Proc.devRef .tc main_v73)
      = val_main_v73 (F := Ideal) (V (Proc.devRef .tc main_arg0)) (V (Proc.devRef .tc main_arg1))
          (V (Proc.devRef .tc main_arg2)) (V (Proc.devRef .tc main_arg3)) := by
  after_results_simp
  repeat rw [toBuf_self]
  repeat rw [ofBuf_self]
  rw [h29, h1, h3]
  rfl

/-! The second stretch writes none of the reference's arguments. -/

theorem B_arg0 : after (opsB (F := Ideal)) V (Proc.devRef .tc main_arg0) = V (Proc.devRef .tc main_arg0) := by
  after_results_simp
  try rfl

theorem B_arg1 : after (opsB (F := Ideal)) V (Proc.devRef .tc main_arg1) = V (Proc.devRef .tc main_arg1) := by
  after_results_simp
  try rfl

theorem B_arg2 : after (opsB (F := Ideal)) V (Proc.devRef .tc main_arg2) = V (Proc.devRef .tc main_arg2) := by
  after_results_simp
  try rfl

theorem B_arg3 : after (opsB (F := Ideal)) V (Proc.devRef .tc main_arg3) = V (Proc.devRef .tc main_arg3) := by
  after_results_simp
  try rfl

theorem B_arg4 : after (opsB (F := Ideal)) V (Proc.devRef .tc main_arg4) = V (Proc.devRef .tc main_arg4) := by
  after_results_simp
  try rfl

theorem B_arg5 : after (opsB (F := Ideal)) V (Proc.devRef .tc main_arg5) = V (Proc.devRef .tc main_arg5) := by
  after_results_simp
  try rfl

/-! ## The third stretch: the edge weights again -/

set_option maxHeartbeats 2000000 in
/-- The edges' first row, read a second time. -/
theorem C_v75 : after (opsC (F := Ideal)) V (Proc.devRef .tc main_v75)
    = val_main_v75 (F := Ideal) (V (Proc.devRef .tc main_arg1)) := by
  after_results_simp
  repeat rw [toBuf_self]
  repeat rw [ofBuf_self]
  rfl

set_option maxHeartbeats 2000000 in
/-- The edges' second row, read a second time. -/
theorem C_v77 : after (opsC (F := Ideal)) V (Proc.devRef .tc main_v77)
    = val_main_v77 (F := Ideal) (V (Proc.devRef .tc main_arg1)) := by
  after_results_simp
  repeat rw [toBuf_self]
  repeat rw [ofBuf_self]
  rfl

set_option maxHeartbeats 2000000 in
/-- The edge weights, computed a second time from the edge list. -/
theorem C_v103 : after (opsC (F := Ideal)) V (Proc.devRef .tc main_v103)
    = val_main_v103 (F := Ideal) (V (Proc.devRef .tc main_arg1)) := by
  after_results_simp
  repeat rw [toBuf_self]
  repeat rw [ofBuf_self]
  rfl

/-- The third stretch leaves the first layer's output as it finds it. -/
theorem C_v73 : after (opsC (F := Ideal)) V (Proc.devRef .tc main_v73) = V (Proc.devRef .tc main_v73) := by
  after_results_simp
  try rfl

/-! The third stretch writes none of the reference's arguments. -/

theorem C_arg0 : after (opsC (F := Ideal)) V (Proc.devRef .tc main_arg0) = V (Proc.devRef .tc main_arg0) := by
  after_results_simp
  try rfl

theorem C_arg1 : after (opsC (F := Ideal)) V (Proc.devRef .tc main_arg1) = V (Proc.devRef .tc main_arg1) := by
  after_results_simp
  try rfl

theorem C_arg2 : after (opsC (F := Ideal)) V (Proc.devRef .tc main_arg2) = V (Proc.devRef .tc main_arg2) := by
  after_results_simp
  try rfl

theorem C_arg3 : after (opsC (F := Ideal)) V (Proc.devRef .tc main_arg3) = V (Proc.devRef .tc main_arg3) := by
  after_results_simp
  try rfl

theorem C_arg4 : after (opsC (F := Ideal)) V (Proc.devRef .tc main_arg4) = V (Proc.devRef .tc main_arg4) := by
  after_results_simp
  try rfl

theorem C_arg5 : after (opsC (F := Ideal)) V (Proc.devRef .tc main_arg5) = V (Proc.devRef .tc main_arg5) := by
  after_results_simp
  try rfl

end Cert.ReferenceIdeal.Chunks

end
-- ==== Proof.RefChunksDE.lean ====
/-
  The reference's last two stretches of operations, read back as stage functions.

  The fourth stretch computes the second layer's pre-activation from the first layer's output and the edge data; the
  fifth is the logarithmic softmax along each row. Run from contents in which the live buffers hold the stage
  functions of the arguments, each stretch leaves in its result buffer the next stage function of the same
  arguments, and leaves every argument buffer as it was.
-/
import proofs.«178568_j36498632082159_1_alg».proof.Proof.RefOps
import Idealize.ShloMosaic.Lib.StableHlo.Run

noncomputable section

namespace Cert.ReferenceIdeal.Chunks

open Cert.ReferenceIdeal Cert.ReferenceIdeal.Gen Cert.ReferenceIdeal.ReadP Idealize.ShloMosaic Idealize.ShloMosaic.TcCoe
  Idealize.SL.Sem Idealize.ShloMosaic.StableHlo

variable (V : Valuation τ sig (Elt Ideal))

/-! ## The fourth stretch: the second layer's pre-activation -/

set_option maxHeartbeats 2000000 in
/-- From the first layer's output and the edge data the fourth stretch leaves the second layer's pre-activation. -/
theorem D_v146
    (h73 : V (Proc.devRef .tc main_v73) = val_main_v73 (F := Ideal) (V (Proc.devRef .tc main_arg0)) (V (Proc.devRef .tc main_arg1)) (V (Proc.devRef .tc main_arg2)) (V (Proc.devRef .tc main_arg3)))
    (h75 : V (Proc.devRef .tc main_v75) = val_main_v75 (F := Ideal) (V (Proc.devRef .tc main_arg1)))
    (h77 : V (Proc.devRef .tc main_v77) = val_main_v77 (F := Ideal) (V (Proc.devRef .tc main_arg1)))
    (h103 : V (Proc.devRef .tc main_v103) = val_main_v103 (F := Ideal) (V (Proc.devRef .tc main_arg1))) :
    after (opsD (F := Ideal)) V (Proc.devRef .tc main_v146)
      = val_main_v146 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  rw [h73, h75, h77, h103]
  rfl

set_option maxHeartbeats 2000000 in
/-- The fourth stretch does not write argument 0. -/
theorem D_arg0 : after (opsD (F := Ideal)) V (Proc.devRef .tc main_arg0) = V (Proc.devRef .tc main_arg0) := by
  after_results_simp

set_option maxHeartbeats 2000000 in
/-- The fourth stretch does not write argument 1. -/
theorem D_arg1 : after (opsD (F := Ideal)) V (Proc.devRef .tc main_arg1) = V (Proc.devRef .tc main_arg1) := by
  after_results_simp

set_option maxHeartbeats 2000000 in
/-- The fourth stretch does not write argument 2. -/
theorem D_arg2 : after (opsD (F := Ideal)) V (Proc.devRef .tc main_arg2) = V (Proc.devRef .tc main_arg2) := by
  after_results_simp

set_option maxHeartbeats 2000000 in
/-- The fourth stretch does not write argument 3. -/
theorem D_arg3 : after (opsD (F := Ideal)) V (Proc.devRef .tc main_arg3) = V (Proc.devRef .tc main_arg3) := by
  after_results_simp

set_option maxHeartbeats 2000000 in
/-- The fourth stretch does not write argument 4. -/
theorem D_arg4 : after (opsD (F := Ideal)) V (Proc.devRef .tc main_arg4) = V (Proc.devRef .tc main_arg4) := by
  after_results_simp

set_option maxHeartbeats 2000000 in
/-- The fourth stretch does not write argument 5. -/
theorem D_arg5 : after (opsD (F := Ideal)) V (Proc.devRef .tc main_arg5) = V (Proc.devRef .tc main_arg5) := by
  after_results_simp

/-! ## The fifth stretch: the logarithmic softmax -/

set_option maxHeartbeats 2000000 in
/-- From the second layer's pre-activation the fifth stretch leaves the logarithmic softmax of its rows. -/
theorem E_v147 (x0 : (⟨S100000x64, .f32⟩ : BufTy).Contents (Elt Ideal)) (x1 : (⟨S2x1600000, .i32⟩ : BufTy).Contents (Elt Ideal))
    (x2 : (⟨S3x64x16, .f32⟩ : BufTy).Contents (Elt Ideal)) (x3 : (⟨S16, .f32⟩ : BufTy).Contents (Elt Ideal))
    (x4 : (⟨S3x16x40, .f32⟩ : BufTy).Contents (Elt Ideal)) (x5 : (⟨S40, .f32⟩ : BufTy).Contents (Elt Ideal))
    (h146 : V (Proc.devRef .tc main_v146) = val_main_v146 (F := Ideal) x0 x1 x2 x3 x4 x5) :
    after (opsE (F := Ideal)) V (Proc.devRef .tc main_v147) = val_main_v147 (F := Ideal) x0 x1 x2 x3 x4 x5 := by
  after_results_simp
  repeat rw [toBuf_self]
  repeat rw [ofBuf_self]
  rw [h146]
  rfl

set_option maxHeartbeats 2000000 in
/-- The fifth stretch does not write argument 0. -/
theorem E_arg0 : after (opsE (F := Ideal)) V (Proc.devRef .tc main_arg0) = V (Proc.devRef .tc main_arg0) := by
  after_results_simp

set_option maxHeartbeats 2000000 in
/-- The fifth stretch does not write argument 1. -/
theorem E_arg1 : after (opsE (F := Ideal)) V (Proc.devRef .tc main_arg1) = V (Proc.devRef .tc main_arg1) := by
  after_results_simp

set_option maxHeartbeats 2000000 in
/-- The fifth stretch does not write argument 2. -/
theorem E_arg2 : after (opsE (F := Ideal)) V (Proc.devRef .tc main_arg2) = V (Proc.devRef .tc main_arg2) := by
  after_results_simp

set_option maxHeartbeats 2000000 in
/-- The fifth stretch does not write argument 3. -/
theorem E_arg3 : after (opsE (F := Ideal)) V (Proc.devRef .tc main_arg3) = V (Proc.devRef .tc main_arg3) := by
  after_results_simp

set_option maxHeartbeats 2000000 in
/-- The fifth stretch does not write argument 4. -/
theorem E_arg4 : after (opsE (F := Ideal)) V (Proc.devRef .tc main_arg4) = V (Proc.devRef .tc main_arg4) := by
  after_results_simp

set_option maxHeartbeats 2000000 in
/-- The fifth stretch does not write argument 5. -/
theorem E_arg5 : after (opsE (F := Ideal)) V (Proc.devRef .tc main_arg5) = V (Proc.devRef .tc main_arg5) := by
  after_results_simp

end Cert.ReferenceIdeal.Chunks

end
-- ==== Proof.RefValue.lean ====
/-
  The reference's run, read back stage by stage.

  @main is a straight line of 200 host operations: every weakly fair execution terminates with each buffer at the fold
  of the operations over the launch contents. The fold is taken one stretch at a time. The first stretch leaves the
  edge rows, columns and weights; the second, from those and the arguments, the first layer; the third computes the
  rows, columns and weights again; the fourth, from the first layer and those, the second layer's pre-activation; the
  fifth its logarithmic softmax. No stretch writes an argument, and the third does not write the first layer's output,
  so each stretch finds what the earlier ones left. The result buffer therefore ends at the last stage of the launch
  arguments, and the arguments end as launched.
-/
import proofs.«178568_j36498632082159_1_alg».proof.Proof.RefChunksABC
import proofs.«178568_j36498632082159_1_alg».proof.Proof.RefChunksDE

noncomputable section

namespace Cert.ReferenceIdeal.Chunks

open Cert.ReferenceIdeal Cert.ReferenceIdeal.Gen Cert.ReferenceIdeal.ReadP Idealize.ShloMosaic Idealize.ShloMosaic.TcCoe Idealize.SL.Sem
open Idealize.ShloMosaic.StableHlo

section Fold

variable (V : Valuation τ sig (Elt Ideal))

/-- The contents after the first two, three and four stretches. -/
abbrev VA : Valuation τ sig (Elt Ideal) := after (opsA (F := Ideal)) V
abbrev VB : Valuation τ sig (Elt Ideal) := after (opsB (F := Ideal)) (VA V)
abbrev VC : Valuation τ sig (Elt Ideal) := after (opsC (F := Ideal)) (VB V)
abbrev VD : Valuation τ sig (Elt Ideal) := after (opsD (F := Ideal)) (VC V)

/-- The whole fold is the five stretches' folds in order. -/
theorem after_ops : after (ValueP.ops (F := Ideal)) V = after (opsE (F := Ideal)) (VD V) := by
  rw [ops_split, after_append, after_append, after_append, after_append]

theorem VA_arg0 : VA V (Proc.devRef .tc main_arg0) = V (Proc.devRef .tc main_arg0) := A_arg0 V
theorem VB_arg0 : VB V (Proc.devRef .tc main_arg0) = V (Proc.devRef .tc main_arg0) := (B_arg0 (VA V)).trans (VA_arg0 V)
theorem VC_arg0 : VC V (Proc.devRef .tc main_arg0) = V (Proc.devRef .tc main_arg0) := (C_arg0 (VB V)).trans (VB_arg0 V)
theorem VD_arg0 : VD V (Proc.devRef .tc main_arg0) = V (Proc.devRef .tc main_arg0) := (D_arg0 (VC V)).trans (VC_arg0 V)
theorem VA_arg1 : VA V (Proc.devRef .tc main_arg1) = V (Proc.devRef .tc main_arg1) := A_arg1 V
theorem VB_arg1 : VB V (Proc.devRef .tc main_arg1) = V (Proc.devRef .tc main_arg1) := (B_arg1 (VA V)).trans (VA_arg1 V)
theorem VC_arg1 : VC V (Proc.devRef .tc main_arg1) = V (Proc.devRef .tc main_arg1) := (C_arg1 (VB V)).trans (VB_arg1 V)
theorem VD_arg1 : VD V (Proc.devRef .tc main_arg1) = V (Proc.devRef .tc main_arg1) := (D_arg1 (VC V)).trans (VC_arg1 V)
theorem VA_arg2 : VA V (Proc.devRef .tc main_arg2) = V (Proc.devRef .tc main_arg2) := A_arg2 V
theorem VB_arg2 : VB V (Proc.devRef .tc main_arg2) = V (Proc.devRef .tc main_arg2) := (B_arg2 (VA V)).trans (VA_arg2 V)
theorem VC_arg2 : VC V (Proc.devRef .tc main_arg2) = V (Proc.devRef .tc main_arg2) := (C_arg2 (VB V)).trans (VB_arg2 V)
theorem VD_arg2 : VD V (Proc.devRef .tc main_arg2) = V (Proc.devRef .tc main_arg2) := (D_arg2 (VC V)).trans (VC_arg2 V)
theorem VA_arg3 : VA V (Proc.devRef .tc main_arg3) = V (Proc.devRef .tc main_arg3) := A_arg3 V
theorem VB_arg3 : VB V (Proc.devRef .tc main_arg3) = V (Proc.devRef .tc main_arg3) := (B_arg3 (VA V)).trans (VA_arg3 V)
theorem VC_arg3 : VC V (Proc.devRef .tc main_arg3) = V (Proc.devRef .tc main_arg3) := (C_arg3 (VB V)).trans (VB_arg3 V)
theorem VD_arg3 : VD V (Proc.devRef .tc main_arg3) = V (Proc.devRef .tc main_arg3) := (D_arg3 (VC V)).trans (VC_arg3 V)
theorem VA_arg4 : VA V (Proc.devRef .tc main_arg4) = V (Proc.devRef .tc main_arg4) := A_arg4 V
theorem VB_arg4 : VB V (Proc.devRef .tc main_arg4) = V (Proc.devRef .tc main_arg4) := (B_arg4 (VA V)).trans (VA_arg4 V)
theorem VC_arg4 : VC V (Proc.devRef .tc main_arg4) = V (Proc.devRef .tc main_arg4) := (C_arg4 (VB V)).trans (VB_arg4 V)
theorem VD_arg4 : VD V (Proc.devRef .tc main_arg4) = V (Proc.devRef .tc main_arg4) := (D_arg4 (VC V)).trans (VC_arg4 V)
theorem VA_arg5 : VA V (Proc.devRef .tc main_arg5) = V (Proc.devRef .tc main_arg5) := A_arg5 V
theorem VB_arg5 : VB V (Proc.devRef .tc main_arg5) = V (Proc.devRef .tc main_arg5) := (B_arg5 (VA V)).trans (VA_arg5 V)
theorem VC_arg5 : VC V (Proc.devRef .tc main_arg5) = V (Proc.devRef .tc main_arg5) := (C_arg5 (VB V)).trans (VB_arg5 V)
theorem VD_arg5 : VD V (Proc.devRef .tc main_arg5) = V (Proc.devRef .tc main_arg5) := (D_arg5 (VC V)).trans (VC_arg5 V)

/-- After the second stretch the first layer's output is the first-layer stage of the arguments. -/
theorem VB_v73 : VB V (Proc.devRef .tc main_v73)
    = val_main_v73 (F := Ideal) (V (Proc.devRef .tc main_arg0)) (V (Proc.devRef .tc main_arg1)) (V (Proc.devRef .tc main_arg2)) (V (Proc.devRef .tc main_arg3)) := by
  have h1 : VA V (Proc.devRef .tc main_v1) = val_main_v1 (F := Ideal) (VA V (Proc.devRef .tc main_arg1)) :=
    (A_v1 V).trans (congrArg (val_main_v1 (F := Ideal)) (VA_arg1 V).symm)
  have h3 : VA V (Proc.devRef .tc main_v3) = val_main_v3 (F := Ideal) (VA V (Proc.devRef .tc main_arg1)) :=
    (A_v3 V).trans (congrArg (val_main_v3 (F := Ideal)) (VA_arg1 V).symm)
  have h29 : VA V (Proc.devRef .tc main_v29) = val_main_v29 (F := Ideal) (VA V (Proc.devRef .tc main_arg1)) :=
    (A_v29 V).trans (congrArg (val_main_v29 (F := Ideal)) (VA_arg1 V).symm)
  have h := B_v73 (VA V) h1 h3 h29
  rw [VA_arg0, VA_arg1, VA_arg2, VA_arg3] at h
  exact h

/-- After the fourth stretch the pre-activation is its stage of the arguments. -/
theorem VD_v146 : VD V (Proc.devRef .tc main_v146)
    = val_main_v146 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have h73 : VC V (Proc.devRef .tc main_v73) = val_main_v73 (F := Ideal) (VC V (Proc.devRef .tc main_arg0)) (VC V (Proc.devRef .tc main_arg1)) (VC V (Proc.devRef .tc main_arg2)) (VC V (Proc.devRef .tc main_arg3)) := by
    rw [VC_arg0, VC_arg1, VC_arg2, VC_arg3]
    exact (C_v73 (VB V)).trans (VB_v73 V)
  have e1 : VB V (Proc.devRef .tc main_arg1) = VC V (Proc.devRef .tc main_arg1) := (VB_arg1 V).trans (VC_arg1 V).symm
  have h75 : VC V (Proc.devRef .tc main_v75) = val_main_v75 (F := Ideal) (VC V (Proc.devRef .tc main_arg1)) :=
    (C_v75 (VB V)).trans (congrArg (val_main_v75 (F := Ideal)) e1)
  have h77 : VC V (Proc.devRef .tc main_v77) = val_main_v77 (F := Ideal) (VC V (Proc.devRef .tc main_arg1)) :=
    (C_v77 (VB V)).trans (congrArg (val_main_v77 (F := Ideal)) e1)
  have h103 : VC V (Proc.devRef .tc main_v103) = val_main_v103 (F := Ideal) (VC V (Proc.devRef .tc main_arg1)) :=
    (C_v103 (VB V)).trans (congrArg (val_main_v103 (F := Ideal)) e1)
  have h := D_v146 (VC V) h73 h75 h77 h103
  rw [VC_arg0, VC_arg1, VC_arg2, VC_arg3, VC_arg4, VC_arg5] at h
  exact h

/-- The result buffer after the whole line: the last stage of the arguments. -/
theorem value : after (ValueP.ops (F := Ideal)) V (Proc.devRef .tc main_v147)
    = val_main_v147 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  exact E_v147 (VD V) _ _ _ _ _ _ (VD_v146 V)

/-- Argument 0 after the whole line is as it was. -/
theorem kept_arg0 : after (ValueP.ops (F := Ideal)) V (Proc.devRef .tc main_arg0) = V (Proc.devRef .tc main_arg0) := by
  rw [after_ops]
  exact (E_arg0 (VD V)).trans (VD_arg0 V)
/-- Argument 1 after the whole line is as it was. -/
theorem kept_arg1 : after (ValueP.ops (F := Ideal)) V (Proc.devRef .tc main_arg1) = V (Proc.devRef .tc main_arg1) := by
  rw [after_ops]
  exact (E_arg1 (VD V)).trans (VD_arg1 V)
/-- Argument 2 after the whole line is as it was. -/
theorem kept_arg2 : after (ValueP.ops (F := Ideal)) V (Proc.devRef .tc main_arg2) = V (Proc.devRef .tc main_arg2) := by
  rw [after_ops]
  exact (E_arg2 (VD V)).trans (VD_arg2 V)
/-- Argument 3 after the whole line is as it was. -/
theorem kept_arg3 : after (ValueP.ops (F := Ideal)) V (Proc.devRef .tc main_arg3) = V (Proc.devRef .tc main_arg3) := by
  rw [after_ops]
  exact (E_arg3 (VD V)).trans (VD_arg3 V)
/-- Argument 4 after the whole line is as it was. -/
theorem kept_arg4 : after (ValueP.ops (F := Ideal)) V (Proc.devRef .tc main_arg4) = V (Proc.devRef .tc main_arg4) := by
  rw [after_ops]
  exact (E_arg4 (VD V)).trans (VD_arg4 V)
/-- Argument 5 after the whole line is as it was. -/
theorem kept_arg5 : after (ValueP.ops (F := Ideal)) V (Proc.devRef .tc main_arg5) = V (Proc.devRef .tc main_arg5) := by
  rw [after_ops]
  exact (E_arg5 (VD V)).trans (VD_arg5 V)

end Fold

/-- On every device, from any memory with zero counters: every weakly fair execution of @main terminates with the result
    at the last stage of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147)
        = val_main_v147 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v147).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_seq ValueP.scopedRefs_eq ValueP.scopedSems_eq defs main (fun _ => ValueP.ops) ValueP.main_eq (fun _ => ValueP.ops_sub) m ρ)

end Cert.ReferenceIdeal.Chunks

end
-- ==== Proof.lean ====
/-
  A two-layer Chebyshev graph convolution network (order three) with a logarithmic softmax, as a kernel and as its
  reference: the two compute the same function of their arguments over the extended reals.

  Both programs form, on the host, the degree-normalised edge weights w(e) of the graph and, for a feature array z, the
  Chebyshev terms T0 = z, T1 = L z, T2 = 2·L T1 − z of the scaled Laplacian L (a gather of rows, a product with w(e), a
  scatter-add into rows). A layer is ((T0·W0 + T1·W1) + T2·W2) + b. The kernel computes the layers in two launches,
  ten blocks of 10000 rows each — the first followed by max(·, 0), the second by the row-wise logarithmic softmax —
  with its matrix products taken in a narrower float format into a zero accumulator; the reference computes them on the
  host with dot_general. Over the extended reals the change of format is the identity, a product into a zero accumulator
  is the contraction sum, a row of a layer depends on the same row of its inputs only (so ten blocks of rows are the
  whole array), the kernel's edge products x[row e]·w(e) are the reference's w(e)·x[row e] by commutativity, and the
  reference's extra maximum of a row's maximum with its own starting value changes nothing. The claims take the
  precondition (every float input finite) as a hypothesis; the proof introduces it and never opens it: none of these
  laws needs finiteness.

  The three frame claims are the generated frame certificates of the two printed kernels and the reference's run with
  its result dropped; the idealization rewrote no operation, so `preserves` is trivial; `algebraic` is the two runs
  ending at one value: the reference's last stage of the arguments.
-/
import proofs.«178568_j36498632082159_1_alg».proof.Defs
import proofs.«178568_j36498632082159_1_alg».proof.Proof.Gen.Kernel
import proofs.«178568_j36498632082159_1_alg».proof.Proof.Gen.Kernel.Skeleton
import proofs.«178568_j36498632082159_1_alg».proof.Proof.Gen.Kernel.Launch
import proofs.«178568_j36498632082159_1_alg».proof.Proof.Gen.Kernel.Points
import proofs.«178568_j36498632082159_1_alg».proof.Proof.Gen.Kernel.Frame
import proofs.«178568_j36498632082159_1_alg».proof.Proof.Gen.KernelIdeal
import proofs.«178568_j36498632082159_1_alg».proof.Proof.Gen.KernelIdeal.Skeleton
import proofs.«178568_j36498632082159_1_alg».proof.Proof.Gen.KernelIdeal.Launch
import proofs.«178568_j36498632082159_1_alg».proof.Proof.Gen.KernelIdeal.Points
import proofs.«178568_j36498632082159_1_alg».proof.Proof.Gen.KernelIdeal.Frame
import proofs.«178568_j36498632082159_1_alg».proof.Proof.Gen.ReferenceIdeal
import proofs.«178568_j36498632082159_1_alg».proof.Proof.Gen.Pre_finite_inputs
import proofs.«178568_j36498632082159_1_alg».proof.Proof.Bridge
import proofs.«178568_j36498632082159_1_alg».proof.Proof.RefValue
import Idealize.ShloMosaic.Adequacy
import Idealize.ShloMosaic.Init

noncomputable section

namespace Cert.Proof

open Idealize.ShloMosaic Idealize.SL.Sem

/-- The printed kernel runs and leaves its arguments as launched: the generated frame certificate. -/
theorem frame_kernel : Cert.frame_Kernel :=
  fun m ρ _ => Cert.Kernel.Gen.frame m ρ

/-- The idealized kernel likewise. -/
theorem frame_kernelIdeal : Cert.frame_KernelIdeal :=
  fun m ρ _ => Cert.KernelIdeal.Gen.frame m ρ

/-- The reference: its run, the result dropped. -/
theorem frame_referenceIdeal : Cert.frame_ReferenceIdeal :=
  fun m ρ _ => (θ_run Cert.ReferenceIdeal.defs _ _).mono (fun _ h c => (h c).2) (Cert.ReferenceIdeal.Chunks.run m ρ)

/-- The idealization rewrote no operation. -/
theorem preserves : Cert.preserves_Kernel_KernelIdeal := trivial

/-- Run from memories that agree on the arguments, both idealized programs end with the reference's last stage of
    those arguments in their result buffers. -/
theorem algebraic : Cert.algebraic_KernelIdeal_ReferenceIdeal := by
  intro m ρ m' ρ' _ hagree
  refine ⟨_, Cert.KernelIdeal.Bridge.run_value m ρ, ?_⟩
  refine (θ_run Cert.ReferenceIdeal.defs _ _).mono (fun _ h c => ⟨(h c).1.trans ?_, (h c).2⟩)
    (Cert.ReferenceIdeal.Chunks.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
